-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S128 .f32) (main_arg5 : FVec F S128x32 .f32) (main_arg6 : FVec F S32 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg5
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S16384x512 .f32) (main_arg1 : FVec F S512x256 .f32) (main_arg2 : FVec F S256 .f32) (main_arg3 : FVec F S256x128 .f32) (main_arg4 : FVec F S128 .f32) (main_arg5 : FVec F S128x32 .f32) (main_arg6 : FVec F S32 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S16384x512 : Shape := ⟨2, ![16384, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x256 : Shape := ⟨2, ![1, 256]⟩
abbrev S1x128 : Shape := ⟨2, ![1, 128]⟩
abbrev S_ : Shape := ⟨0, ![]⟩
abbrev S128x128 : Shape := ⟨2, ![128, 128]⟩
abbrev S8192x128 : Shape := ⟨2, ![8192, 128]⟩
abbrev S2048x512 : Shape := ⟨2, ![2048, 512]⟩
abbrev S2048x128 : Shape := ⟨2, ![2048, 128]⟩
abbrev S2048x256 : Shape := ⟨2, ![2048, 256]⟩
abbrev S8192x32 : Shape := ⟨2, ![8192, 32]⟩
abbrev S16384x32 : Shape := ⟨2, ![16384, 32]⟩

abbrev nBuf : Space → Nat
  | .hbm => 21
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S1x256, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S8192x32, .f32⟩
  | .hbm, ⟨19, _⟩ => ⟨S8192x32, .f32⟩
  | .hbm, ⟨20, _⟩ => ⟨S16384x32, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S256_S1x256 : S256.ShapeCasts S1x256
  shapeCasts_S128_S1x128 : S128.ShapeCasts S1x128
  pads_S128x32_S128x128_000_0960 : S128x32.Pads (![0, 0] : Fin 2 → Nat) ![0, 96] ![0, 0] S128x128
  h_S_ : 0 < S_.numel
  pads_S32_S128_0960 : S32.Pads (![0] : Fin 1 → Nat) ![96] ![0] S128
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x512_S2048x512_0_0 : ∀ a, (![0, 0] : Fin 2 → Nat) a + S2048x512.size a ≤ S2048x512.size a
  h_S2048x512 : 0 < S2048x512.numel
  broadcasts_S1x256_S2048x256 : S1x256.Broadcasts S2048x256
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S8192x128_S8192x32_0_0 : S8192x128.Slices ![0, 0] S8192x32
  concatenates_S8192x32_S8192x32_S16384x32_d0 : Shape.Concatenates [S8192x32, S8192x32] S16384x32 0
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S8192x128.size a
  hwx0_8 : ∀ i : grid0.Coords, EltTy.bits .f32 = 32 ∨ (Rect.block (s := S8192x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S8192x128.size a
  hwx0_9 : ∀ i : grid0.Coords, EltTy.bits .f32 = 32 ∨ (Rect.block (s := S8192x128) S2048x128.size (cc0_transform_9 i) (hinb0_9 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x32 : Shape := ⟨2, ![128, 32]⟩
abbrev S32 : Shape := ⟨1, ![32]⟩
abbrev S16384x256 : Shape := ⟨2, ![16384, 256]⟩
abbrev S1x256 : Shape := ⟨2, ![1, 256]⟩
abbrev S_ : Shape := ⟨0, ![]⟩
abbrev S16384x128 : Shape := ⟨2, ![16384, 128]⟩
abbrev S1x128 : Shape := ⟨2, ![1, 128]⟩
abbrev S16384x32 : Shape := ⟨2, ![16384, 32]⟩
abbrev S1x32 : Shape := ⟨2, ![1, 32]⟩

abbrev nBuf : Space → Nat
  | .hbm => 25
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .f32⟩
  | .hbm, ⟨14, _⟩ => ⟨S16384x128, .f32⟩
  | .hbm, ⟨15, _⟩ => ⟨S1x128, .f32⟩
  | .hbm, ⟨16, _⟩ => ⟨S16384x128, .f32⟩
  | .hbm, ⟨17, _⟩ => ⟨S16384x128, .f32⟩
  | .hbm, ⟨18, _⟩ => ⟨S_, .f32⟩
  | .hbm, ⟨19, _⟩ => ⟨S16384x128, .f32⟩
  | .hbm, ⟨20, _⟩ => ⟨S16384x128, .f32⟩
  | .hbm, ⟨21, _⟩ => ⟨S16384x32, .f32⟩
  | .hbm, ⟨22, _⟩ => ⟨S1x32, .f32⟩
  | .hbm, ⟨23, _⟩ => ⟨S16384x32, .f32⟩
  | .hbm, ⟨24, _⟩ => ⟨S16384x32, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S16384x128_S128x32_S16384x32_1_0_0_1_n_n_wf : DotDims.WF S16384x128 S128x32 S16384x32 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf

class Facts : Prop extends Facts₀ where

variable [Facts]
-- ==== Proof.K.Data.lean ====
/-
  The proof data of the one pipelined call, at any float instance F.

  The call walks a grid of four points.  At point t it stages, from the activations x (16384 rows
  of 512), row block t through one window and row block 7 - t through a second window on the SAME
  array; the three weight matrices and the three bias rows whole (fetched once, at the first point);
  and it writes back two result blocks of 2048 rows by 128 columns, block t of the first result and
  block 3 - t of the second.  Each result block is one whole-block store of the three-layer payload
  of the staged inputs.  Because the two activation windows stage one array, that array is held
  half and half (q), the two halves making the whole.
-/
import proofs.«138592_g19258633355276_cont_8to1_1994_27_alg».proof.Proof.Gen.Kernel.Launch
import proofs.«138592_g19258633355276_cont_8to1_1994_27_alg».proof.Proof.Gen.Kernel.Skeleton
import proofs.«138592_g19258633355276_cont_8to1_1994_27_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]

variable (m : (ℓ : Loc nD τ sig) → Buf (Elt F) ℓ)

/-- What core c's buffers hold when the call is entered: the host lines before it, applied to the
    launch memory (two bias reshapes, the last layer's weights and bias padded to 128 columns). -/
abbrev V0 (c : Dev nD) : Valuation τ sig (Elt F) :=
  StableHlo.after (List.flatten [hostOps0, hostOps0_1, hostOps0_2, hostOps0_3, hostOps0_4]) (fun b => m (c, b))
/-- The same, read at a reference of the core. -/
abbrev V (c : Dev nD) (b : Ref sig .tc) : Buf (Elt F) ((c : Thread nD τ).loc b) := V0 m c (Proc.devRef .tc b)

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-buffer rectangles the body loads and stores through. -/
abbrev rX : Rect S2048x512 := Rect.unit (s := S2048x512) ![0, 0] S2048x512.size inb_S2048x512_S2048x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rB : Rect S1x128 := Rect.unit (s := S1x128) ![0, 0] S1x128.size inb_S1x128_S1x128_0_0
abbrev rW3 : Rect S128x128 := Rect.unit (s := S128x128) ![0, 0] S128x128.size inb_S128x128_S128x128_0_0
abbrev rO : Rect S2048x128 := Rect.unit (s := S2048x128) ![0, 0] S2048x128.size inb_S2048x128_S2048x128_0_0

/-- The first result's staging buffer after the body: one store of the three-layer payload of the
    first activation block xa and the weights and biases. -/
def out0_8 (xa : Vec F S2048x512 .f32) (w1 : Vec F S512x256 .f32) (b1 : Vec F S1x256 .f32) (w2 : Vec F S256x128 .f32)
    (b2 : Vec F S1x128 .f32) (w3 : Vec F S128x128 .f32) (b3 : Vec F S1x128 .f32) : Vec F S2048x128 .f32 :=
  View.canon [⟨rO, k0_pay8 (View.ld w1 rW1) (View.ld w2 rW2) (View.ld w3 rW3) (View.ld b1 rB1) (View.ld b2 rB) (View.ld b3 rB) (View.ld xa rX)⟩]

/-- The second result's staging buffer after the body: the same payload of the second activation block xb. -/
def out0_9 (xb : Vec F S2048x512 .f32) (w1 : Vec F S512x256 .f32) (b1 : Vec F S1x256 .f32) (w2 : Vec F S256x128 .f32)
    (b2 : Vec F S1x128 .f32) (w3 : Vec F S128x128 .f32) (b3 : Vec F S1x128 .f32) : Vec F S2048x128 .f32 :=
  View.canon [⟨rO, k0_pay1 (k0_pay3 (View.ld w2 rW2)) (k0_pay4 (View.ld w3 rW3)) (k0_pay5 (View.ld b1 rB1)) (k0_pay6 (View.ld b2 rB))
    (k0_pay7 (View.ld b3 rB)) (k0_pay9 (View.ld w1 rW1) (View.ld xb rX))⟩]

/-- The proof data on core c: the arrays as the call finds them; after the body at point t each
    input buffer still at its block, each result buffer at its payload; the invariant the scoped
    buffers no window stages; the activations' array held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 2 t) (iblk m c 3 t) (iblk m c 4 t) (iblk m c 5 t) (iblk m c 6 t) (iblk m c 7 t)
    | ⟨9, _⟩ => out0_9 (iblk m c 1 t) (iblk m c 2 t) (iblk m c 3 t) (iblk m c 4 t) (iblk m c 5 t) (iblk m c 6 t) (iblk m c 7 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t
    = out0_9 (iblk m c 1 t) (iblk m c 2 t) (iblk m c 3 t) (iblk m c 4 t) (iblk m c 5 t) (iblk m c 6 t) (iblk m c 7 t) := by dsimp only [dats]

end Cert.Kernel.Hand

end
-- ==== Proof.K.Body.lean ====
/-
  The body of the pipelined call at a grid point: from every input buffer at its block and the
  two result buffers at anything, it leaves the inputs as they were and each result buffer at its
  payload.
-/
import proofs.«138592_g19258633355276_cont_8to1_1994_27_alg».proof.Proof.K.Data
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each input buffer holds when the body runs -/

/-- Input window 0's current buffer holds its block at every point, fetched there or not: unfetched,
    the block index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Input window 1's current buffer holds its block at every point, fetched there or not: unfetched,
    the block index has not moved and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Input window 2's current buffer holds its block at every point, fetched there or not: unfetched,
    the block index has not moved and the body left the block in place. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- Input window 3's current buffer holds its block at every point, fetched there or not: unfetched,
    the block index has not moved and the body left the block in place. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- Input window 4's current buffer holds its block at every point, fetched there or not: unfetched,
    the block index has not moved and the body left the block in place. -/
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-- Input window 5's current buffer holds its block at every point, fetched there or not: unfetched,
    the block index has not moved and the body left the block in place. -/
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-- Input window 6's current buffer holds its block at every point, fetched there or not: unfetched,
    the block index has not moved and the body left the block in place. -/
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-- Input window 7's current buffer holds its block at every point, fetched there or not: unfetched,
    the block index has not moved and the body left the block in place. -/
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-! ## The two stores cover their buffers -/

/-- One store through the whole-buffer rectangle covers the buffer. -/
theorem cover_rO (p0 : Vec F S2048x128 .f32) (y : S2048x128.Idx) :
    ∃ pc ∈ ([⟨rO, p0⟩] : List (View.Piece (Elt F) S2048x128 .f32)), y ∈ pc.1.set :=
  View.cover_of_tiled [⟨rO, p0⟩] S2048x128.size (by rfl) y

/-! ## The body's triple -/

set_option maxHeartbeats 4000000 in
/-- The body on whole staging memrefs, the eight inputs' at read contents and the two results' at anything,
    runs to the continuation holding the inputs' as they were and each result's at its one store's payload:
    the loads read the held contents through the whole-buffer rectangles, the load of a result buffer before
    its store reads an unused value, and the store through the whole-buffer rectangle leaves its canon. -/
theorem sound_kernel (c : Dev nD) (E : Set ℕ) (i : grid0.Coords)
    (arg1 : Memref sig .tc .vmem S2048x512 .f32) (harg1 : arg1.IsWhole)
    (arg2 : Memref sig .tc .vmem S2048x512 .f32) (harg2 : arg2.IsWhole)
    (arg3 : Memref sig .tc .vmem S512x256 .f32) (harg3 : arg3.IsWhole)
    (arg4 : Memref sig .tc .vmem S1x256 .f32) (harg4 : arg4.IsWhole)
    (arg5 : Memref sig .tc .vmem S256x128 .f32) (harg5 : arg5.IsWhole)
    (arg6 : Memref sig .tc .vmem S1x128 .f32) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S2048x128 .f32) (harg9 : arg9.IsWhole)
    (arg10 : Memref sig .tc .vmem S2048x128 .f32) (harg10 : arg10.IsWhole)
    (xa : Vec F S2048x512 .f32) (xb : Vec F S2048x512 .f32) (w1 : Vec F S512x256 .f32) (b1 : Vec F S1x256 .f32) (w2 : Vec F S256x128 .f32) (b2 : Vec F S1x128 .f32) (w3 : Vec F S128x128 .f32) (b3 : Vec F S1x128 .f32)
    (K : PUnit → sProp 𝕄) :
    iprop(owns (c : Thread nD τ) arg1 fullShare xa ∗ owns (c : Thread nD τ) arg2 fullShare xb ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare w3 ∗ owns (c : Thread nD τ) arg8 fullShare b3
        ∗ (∃ d, owns (c : Thread nD τ) arg9 fullShare d) ∗ (∃ d, owns (c : Thread nD τ) arg10 fullShare d)
        ∗ (iprop(owns (c : Thread nD τ) arg1 fullShare xa ∗ owns (c : Thread nD τ) arg2 fullShare xb ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare w3 ∗ owns (c : Thread nD τ) arg8 fullShare b3
            ∗ owns (c : Thread nD τ) arg9 fullShare (out0_8 xa w1 b1 w2 b2 w3 b3)
            ∗ owns (c : Thread nD τ) arg10 fullShare (out0_9 xb w1 b1 w2 b2 w3 b3)) -∗ K ⟨⟩))
      ⊢ wp frame (wpE (defs₀ (F := F)) Variants.none c none) E (cc0__mlp_block i arg1 harg1 arg2 harg2 arg3 harg3 arg4 harg4 arg5 harg5 arg6 harg6 arg7 harg7 arg8 harg8 arg9 harg9 arg10 harg10) K := by
  simp only [cc0__mlp_block_eq_skeleton]; unfold cc0__mlp_block_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_rO _)
  iexists _; isplitr
  swap; · iexact H9
  ipureintro
  exact View.read_writes_eq_canon _ _ _ (cover_rO _)

/-! ## The body obligation, at a generic point -/

/-- What the body is called with at point t: the invariant, what the core owes, and the ten windows'
    current buffers one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the eight input buffers hold their blocks, so the body's triple applies;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the proof data, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Kept.lean ====
/-
  The argument arrays are as launched when the call is entered, and still after the host lines
  that follow it: no host line writes an argument, and the call writes only its two results.
-/
import proofs.«138592_g19258633355276_cont_8to1_1994_27_alg».proof.Proof.K.Data

set_option maxRecDepth 16384

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ)

/-- None of the reference's device buffer is written by any line of the five host stretches before
    the call: each line writes its own result only, and no result is the reference. -/
local macro "not_written_before" r:term : tactic => `(tactic| (
  refine StableHlo.after_of_forall_not_mem (b := Proc.devRef .tc $r) _ _ (List.forall_iff_forall_mem.mp ?_)
  simp only [hostOps0, hostOps0_1, hostOps0_2, hostOps0_3, hostOps0_4, List.flatten_cons, List.flatten_nil,
    List.append_nil, List.cons_append, List.nil_append, List.Forall, StableHlo.TRef.unary, StableHlo.TRef.binary,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- No host line before the call writes an argument: the call finds each as launched. -/
theorem V_main_arg0 (c : Dev nD) : V m c main_arg0 = m ((c : Thread nD τ).loc main_arg0) := by
  not_written_before main_arg0
theorem V_main_arg1 (c : Dev nD) : V m c main_arg1 = m ((c : Thread nD τ).loc main_arg1) := by
  not_written_before main_arg1
theorem V_main_arg2 (c : Dev nD) : V m c main_arg2 = m ((c : Thread nD τ).loc main_arg2) := by
  not_written_before main_arg2
theorem V_main_arg3 (c : Dev nD) : V m c main_arg3 = m ((c : Thread nD τ).loc main_arg3) := by
  not_written_before main_arg3
theorem V_main_arg4 (c : Dev nD) : V m c main_arg4 = m ((c : Thread nD τ).loc main_arg4) := by
  not_written_before main_arg4
theorem V_main_arg5 (c : Dev nD) : V m c main_arg5 = m ((c : Thread nD τ).loc main_arg5) := by
  not_written_before main_arg5
theorem V_main_arg6 (c : Dev nD) : V m c main_arg6 = m ((c : Thread nD τ).loc main_arg6) := by
  not_written_before main_arg6

/-- After the call the host lines that follow write only their own three results, and the call
    rewrites only its windows' arrays; a reference that is neither holds what the call found. -/
local macro "not_written_after" r:term : tactic => `(tactic| (
  unfold Pipeline.afterTail₀
  rw [StableHlo.after_of_forall_not_mem (b := Proc.devRef .tc $r) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))),
    Pipeline.withArrays_of_ne _ _ _ _ $r (by exact (by decide : ∀ w, Pipeline.arrRef spec0 w ≠ $r))]))

/-- No host line after the call writes one of the four arguments the call does not stage, and
    none is an array of the call: each ends as launched. -/
theorem W_main_arg2 (c : Dev nD) :
    Pipeline.afterTail₀ cfgs (dats m) 0 (V0 m) [hostOps1] c main_arg2 = m ((c : Thread nD τ).loc main_arg2) := by
  not_written_after main_arg2
  exact V_main_arg2 m c
theorem W_main_arg4 (c : Dev nD) :
    Pipeline.afterTail₀ cfgs (dats m) 0 (V0 m) [hostOps1] c main_arg4 = m ((c : Thread nD τ).loc main_arg4) := by
  not_written_after main_arg4
  exact V_main_arg4 m c
theorem W_main_arg5 (c : Dev nD) :
    Pipeline.afterTail₀ cfgs (dats m) 0 (V0 m) [hostOps1] c main_arg5 = m ((c : Thread nD τ).loc main_arg5) := by
  not_written_after main_arg5
  exact V_main_arg5 m c
theorem W_main_arg6 (c : Dev nD) :
    Pipeline.afterTail₀ cfgs (dats m) 0 (V0 m) [hostOps1] c main_arg6 = m ((c : Thread nD τ).loc main_arg6) := by
  not_written_after main_arg6
  exact V_main_arg6 m c

end Cert.Kernel.Hand

end
-- ==== Proof.LibSharedFrame.lean ====
/-
  A pipelined call whose INPUT windows may stage one array more than once, followed by host lines.

  The library's frame run for a call continued by host lines asks that the windows' arrays be
  pairwise distinct, because it hands each window its array whole.  When two input windows read one
  array, the array's whole is dealt among them in shares, and dealt back when the call returns.
  This file states the frame run with those two deals as hypotheses: `hsplit` (the buffers behind
  the arrays, whole, make the proof data's arrays at entry), `hjoin` (the proof data's arrays at
  exit make those buffers whole again, at the exit contents) and `hresplit` (and back).  The host
  lines after the call then run within all the core's unscoped buffers, exactly as the lines before
  it do, and the post is the library's: every array at what the proof data computes, every other
  unscoped buffer at what the later lines leave.
-/
import Idealize.ShloMosaic.Lib.Pipeline.FrameSuffix

noncomputable section

namespace Cert.SharedFrame

open Idealize.ShloMosaic Idealize.ShloMosaic.Pipeline
open Idealize.SL
open Idealize.SL.BI (sProp bigSep bigSep_congr bigSep_mono)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

/-- The exit contents at a window's array are what the proof data computes for that window, when
    windows on one array compute the same contents for it. -/
theorem withArrays_arr_of_agree {gr : Nat} {W : Nat} (win : Fin W → WinSpec sig gr) (c : Dev nD) (V : Valuation τ sig Val)
    (A : (w : Fin W) → Buf Val ((win w).arr.view.loc (c.tc : Thread nD τ))) (w : Fin W)
    (h : ∀ w', arrRef win w' = arrRef win w → HEq (A w') (A w)) :
    withArrays win c V A (Proc.devRef .tc (arrRef win w)) = A w := by
  unfold withArrays
  have hex : ∃ w', Proc.devRef .tc (arrRef win w') = Proc.devRef (τ := τ) .tc (arrRef win w) := ⟨w, rfl⟩
  rw [dif_pos hex]
  exact eq_of_heq ((cast_heq _ _).trans (h _ (Proc.devRef_injective _ hex.choose_spec)))

/-- The contents at the call's exit: the arrays at what the proof data computes, the rest as at entry. -/
abbrev exitVal (V₀ : Dev nD → Valuation τ sig Val) (c : Dev nD) : Valuation τ sig Val :=
  withArrays (cfg).spec c (V₀ c) fun w => (dats p c).arrAt w (cfg).N

set_option backward.isDefEq.respectTransparency.types false in
/-- The host lines after the call, from the arrays dealt in shares: dealt back whole (`hjoin`), the
    lines run within every unscoped buffer of the core, and the arrays, which no line writes
    (`hkeep`), are dealt in shares again (`hresplit`). -/
theorem tail_shared (hw : WinFacts₀ (cfg).spec)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (c : Dev nD)
    (hjoin : (dats p c).arrays ((dats p c).arrAt · (cfg).N)
      ⊢ (arrBufs (cfg).spec c (fun b => exitVal cfgs dats p V₀ c (Proc.devRef .tc b)) : sProp 𝕄))
    (hresplit : (arrBufs (cfg).spec c (fun b => exitVal cfgs dats p V₀ c (Proc.devRef .tc b)) : sProp 𝕄)
      ⊢ (dats p c).arrays ((dats p c).arrAt · (cfg).N))
    (Q' : PUnit → sProp 𝕄) :
    iprop((iprop((dats p c).arrays ((dats p c).arrAt · (cfg).N)
              ∗ unscopedRest (cfg).spec c (afterTail₀ cfgs dats p V₀ opss c)) -∗ Q' ⟨⟩)
        ∗ boundary (c.tc : Thread nD τ) ∗ (dats p c).arrays ((dats p c).arrAt · (cfg).N)
        ∗ unscopedRest (cfg).spec c (fun b => V₀ c (Proc.devRef .tc b)))
      ⊢ wp frame (wpE 𝔻 𝕍 (c.tc : Thread nD τ) none) Set.univ (chain (opss.map StableHlo.seq)) Q' := by
  classical
  -- the exit contents and the lines' list
  have hsubU : ∀ ops ∈ opss, ∀ op ∈ ops, op.bufs ⊆ ucRefs τ sig := fun ops ho op h => sub_ucRefs op (hsub ops ho op h)
  -- off the arrays the exit contents are the entry contents
  have hrest : (unscopedRest (cfg).spec c (fun b => V₀ c (Proc.devRef .tc b)) : sProp 𝕄)
      = unscopedRest (cfg).spec c (fun b => exitVal cfgs dats p V₀ c (Proc.devRef .tc b)) := by
    unfold unscopedRest
    exact bigSep_congr fun b hb => by
      refine congrArg _ ?_
      exact (withArrays_of_ne (cfg).spec c (V₀ c) _ b fun w e => (Finset.mem_sdiff.mp hb).2 (Finset.mem_image.mpr ⟨w, Finset.mem_univ _, e⟩)).symm
  -- no line writes an array: after the lines the arrays' buffers hold the exit contents
  have harrs : (arrBufs (cfg).spec c (fun b => StableHlo.after opss.flatten (exitVal cfgs dats p V₀ c) (Proc.devRef .tc b)) : sProp 𝕄)
      = arrBufs (cfg).spec c (fun b => exitVal cfgs dats p V₀ c (Proc.devRef .tc b)) := by
    unfold arrBufs
    exact bigSep_congr fun b hb => by
      obtain ⟨w, -, rfl⟩ := Finset.mem_image.mp hb
      refine congrArg _ ?_
      refine StableHlo.after_of_forall_not_mem _ _ fun op hop => ?_
      obtain ⟨ops, hops, hop'⟩ := List.mem_flatten.mp hop
      exact hkeep ops hops op hop' w
  have hin : (unscopedBufs (Ix := Unit) (Name := ℕ) (U := UR sig nD τ) (Lvl := ℕ) c (fun b => exitVal cfgs dats p V₀ c (Proc.devRef .tc b)) : sProp 𝕄)
      = StableHlo.held (c.tc : Thread nD τ) (ucRefs τ sig) (exitVal cfgs dats p V₀ c) :=
    unscopedBufs_held c (exitVal cfgs dats p V₀ c)
  have hout : (unscopedBufs (Ix := Unit) (Name := ℕ) (U := UR sig nD τ) (Lvl := ℕ) c (fun b => StableHlo.after opss.flatten (exitVal cfgs dats p V₀ c) (Proc.devRef .tc b)) : sProp 𝕄)
      = StableHlo.held (c.tc : Thread nD τ) (ucRefs τ sig) (StableHlo.after opss.flatten (exitVal cfgs dats p V₀ c)) :=
    unscopedBufs_held c (StableHlo.after opss.flatten (exitVal cfgs dats p V₀ c))
  have hstart : iprop((arrBufs (cfg).spec c (fun b => exitVal cfgs dats p V₀ c (Proc.devRef .tc b)) : sProp 𝕄)
        ∗ unscopedRest (cfg).spec c (fun b => exitVal cfgs dats p V₀ c (Proc.devRef .tc b)))
      ⊢ (StableHlo.held (c.tc : Thread nD τ) (ucRefs τ sig) (exitVal cfgs dats p V₀ c) : sProp 𝕄) := by
    rw [← hin, unscopedBufs_split₀ cfgs p hw.arr_unscoped c]
  have hfin : (StableHlo.held (c.tc : Thread nD τ) (ucRefs τ sig) (StableHlo.after opss.flatten (exitVal cfgs dats p V₀ c)) : sProp 𝕄)
      ⊢ iprop((dats p c).arrays ((dats p c).arrAt · (cfg).N) ∗ unscopedRest (cfg).spec c (afterTail₀ cfgs dats p V₀ opss c)) := by
    rw [← hout, unscopedBufs_split₀ cfgs p hw.arr_unscoped c, harrs]
    exact sep_mono hresplit .rfl
  rw [← List.append_nil (opss.map StableHlo.seq), hrest]
  iintro ⟨Hk, Hb, Ha, Hr⟩
  ihave Hj := (hjoin) $$ Ha
  ihave Hu := (hstart) $$ [Hj Hr]
  · isplitl [Hj] <;> iassumption
  iapply (wp_seqs_then (fun q => Cfg.toPCfg (Val := Val) (cfgs q)) defs₀ 𝒱₀ c (ucRefs τ sig) [] opss hsubU hfresh (exitVal cfgs dats p V₀ c)) $$ [Hb Hu]
  · isplitl [Hb] <;> iassumption
  iintro ⟨Hb, Hu⟩
  rw [chain_nil, wp_pure]
  imodintro
  iapply Hk
  iapply (hfin)
  iexact Hu

set_option backward.isDefEq.respectTransparency.types false in
/-- THE FRAME RUN of a call whose input windows may share arrays, continued by host lines: as the
    library's frame run around a call, with the arrays' distinctness replaced by the three deals.
    The invariant is the scoped buffers no window stages (`hΦ`); nothing is owed (`howed`). -/
theorem θ_run_frame_around_shared
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hΦ : ∀ c t, (dats p c).Φ t = scopedRest (cfg).spec c)
    (hsplit : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N)
      ⊢ (arrBufs (cfg).spec c (fun b => exitVal cfgs dats p V₀ c (Proc.devRef .tc b)) : sProp 𝕄))
    (hresplit : ∀ c, (arrBufs (cfg).spec c (fun b => exitVal cfgs dats p V₀ c (Proc.devRef .tc b)) : sProp 𝕄)
      ⊢ (dats p c).arrays ((dats p c).arrAt · (cfg).N)) :
    θ_run 𝔻 (onTc main) (s₀ m g) (FramePost cfgs dats p (afterTail₀ cfgs dats p V₀ opss)) := by
  classical
  exact θ_run_region_noSem_pf_tail (fun q => (cfgs q).toPCfg (Val := Val)) (fun q => (cfgs q).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (afterTail₀ cfgs dats p V₀ opss c))
    (hX := fun c => by
      rw [unscopedRestP_none]
      iintro H
      isplitr
      · iempintro
      · iexact H)
    (hin := fun c => by
      rw [hΦ]
      iintro ⟨-, -, HR⟩
      iexact HR)
    (hout := fun c => by
      rw [hΦ]
      iintro HR
      isplitr
      · iempintro
      · iexact HR)
    (htail := fun c Q' => tail_shared cfgs dats p defs₀ 𝒱₀ hw V₀ opss hsub hfresh hkeep c (hjoin c) (hresplit c) Q')
    (QY := fun c s => ∀ b ∈ restRefs sig (cfg).spec, s.mem ((c.tc : Thread nD τ).loc b) = afterTail₀ cfgs dats p V₀ opss c b)
    (hY := fun c s' => by
      iintro ⟨-, HU, HSI⟩
      unfold unscopedRest
      imodintro
      iapply (pointsTo_read_all (restRefs sig (cfg).spec) (fun b => (c.tc : Thread nD τ).loc b) (afterTail₀ cfgs dats p V₀ opss c) s')
      isplitl [HU] <;> iassumption)
    (hQ := fun s h c => ⟨(h c).1, (h c).2.2⟩)

end Cert.SharedFrame

end
-- ==== Proof.K.Run.lean ====
/-
  The run of the whole program at any float instance: the host lines before the call, the call,
  the host lines after it.  The activations' array is staged by two windows, so its buffer is
  dealt to them half and half when the call is entered and made whole again when it returns; every
  other staged array belongs to one window, whole.  The arguments end as launched: none is written
  by a host line, and the call writes only its two results.
-/
import proofs.«138592_g19258633355276_cont_8to1_1994_27_alg».proof.Proof.K.Data
import proofs.«138592_g19258633355276_cont_8to1_1994_27_alg».proof.Proof.K.Body
import proofs.«138592_g19258633355276_cont_8to1_1994_27_alg».proof.Proof.K.Kept
import proofs.«138592_g19258633355276_cont_8to1_1994_27_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the five host stretches, the call, and one more host stretch: it reduces to the
    call continued by the last stretch, entered at the contents the first five leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The host lines after the call -/

/-- They touch buffers of the core only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the call (each writes its own result, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The buffers behind the windows, and the windows' holdings of them -/

/-- The nine distinct buffers behind the ten windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_arg3) ↦{fullShare} W main_arg3)
          ∗ (((c : Thread nD τ).loc main_v1) ↦{fullShare} W main_v1) ∗ (((c : Thread nD τ).loc main_v2) ↦{fullShare} W main_v2)
          ∗ (((c : Thread nD τ).loc main_v4) ↦{fullShare} W main_v4) ∗ (((c : Thread nD τ).loc main_v5_0) ↦{fullShare} W main_v5_0)
          ∗ (((c : Thread nD τ).loc main_v5_1) ↦{fullShare} W main_v5_1)) := by
  unfold Pipeline.arrBufs
  exact bigSep_eq_bigSepL_of_eq [main_arg0, main_arg1, main_v0, main_arg3, main_v1, main_v2, main_v4, main_v5_0, main_v5_1] (by decide) (by decide) _

/-- The windows' holdings, each a whole buffer at the window's share. -/
theorem arrays0_eq (c : Dev nD) (Fa : (w : Fin cfg0.W) → Buf (Elt F) ((cfg0.win w).arr.view.loc (c.tc : Thread nD τ))) :
    (dats m 0 c).arrays Fa
      = bigSep Finset.univ fun w : Fin cfg0.W => (((c.tc : Thread nD τ).loc (Pipeline.arrRef spec0 w)) ↦{(dats m 0 c).share w} Fa w : sProp 𝕄) := by
  unfold Dat.arrays
  exact bigSep_congr fun w _ => by rw [(arr_whole0 w).set_eq_univ]

/-- DEALING: the activations' buffer, whole, is a half for each of its two windows; every other
    buffer goes whole to its one window. -/
theorem deal (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dats m 0 c).arrays (fun w => W (Pipeline.arrRef spec0 w)) := by
  rw [arrBufs0_eq, arrays0_eq, bigSep_W0]
  iintro ⟨Hx, H1, H2, H3, H4, H5, H6, H7, H8⟩
  ihave Hx2 := (pointsTo_share (PosShare.mem_left_op_right fullShare)).1 $$ Hx
  icases Hx2 with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And back: the two halves of the activations' buffer make it whole. -/
theorem undeal (c : Dev nD) (W : (b : Ref sig .tc) → Buf (Elt F) ((c : Thread nD τ).loc b)) :
    (dats m 0 c).arrays (fun w => W (Pipeline.arrRef spec0 w))
      ⊢ (Pipeline.arrBufs (Ix := Unit) (Name := ℕ) (U := UR sig nD τ) (Lvl := ℕ) spec0 c W : sProp 𝕄) := by
  rw [arrBufs0_eq, arrays0_eq, bigSep_W0]
  iintro ⟨Hl, Hr, H1, H2, H3, H4, H5, H6, H7, H8⟩
  ihave Hx := (pointsTo_share (PosShare.mem_left_op_right fullShare)).2 $$ [Hl Hr]
  · isplitl [Hl]; · iexact Hl
    iexact Hr
  isplitl [Hx]; · iexact Hx
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The two windows on the activations' array end with the same contents for it: neither writes. -/
theorem agree01 (c : Dev nD) : HEq ((dats m 0 c).arrAt 0 cfg0.N) ((dats m 0 c).arrAt 1 cfg0.N) := by
  rw [(dats m 0 c).arrAt_in 0 rfl, (dats m 0 c).arrAt_in 1 rfl, A_eq, A_eq]

/-- Two windows stage one array only if they are one window, or the two activation windows. -/
theorem same_arr : ∀ w w' : Fin 10, Pipeline.arrRef spec0 w' = Pipeline.arrRef spec0 w →
    w' = w ∨ ((w' = 0 ∨ w' = 1) ∧ (w = 0 ∨ w = 1)) := by decide

/-- The exit contents at each window's array are what the proof data computes for the window. -/
theorem exit_arr (c : Dev nD) (w : Fin cfg0.W) :
    Cert.SharedFrame.exitVal cfgs (dats m) 0 (V0 m) c (Proc.devRef .tc (Pipeline.arrRef spec0 w)) = (dats m 0 c).arrAt w cfg0.N :=
  Cert.SharedFrame.withArrays_arr_of_agree spec0 c (V0 m c) (fun w => (dats m 0 c).arrAt w cfg0.N) w (by
    intro w' h
    rcases same_arr w w' h with rfl | ⟨h1 | h1, h2 | h2⟩
    · exact HEq.rfl
    · subst h1; subst h2; exact HEq.rfl
    · subst h1; subst h2; exact agree01 m c
    · subst h1; subst h2; exact (agree01 m c).symm
    · subst h1; subst h2; exact HEq.rfl)

/-- At entry the windows hold the entry contents. -/
theorem entry_fun (c : Dev nD) :
    (fun w => (dats m 0 c).arrAt w 0) = fun w : Fin cfg0.W => V m c (Pipeline.arrRef spec0 w) :=
  funext fun w => by rw [Dat.arrAt]; exact A_eq m c w

/-- At exit the windows hold the exit contents. -/
theorem exit_fun (c : Dev nD) :
    (fun w => (dats m 0 c).arrAt w cfg0.N)
      = fun w : Fin cfg0.W => Cert.SharedFrame.exitVal cfgs (dats m) 0 (V0 m) c (Proc.devRef .tc (Pipeline.arrRef spec0 w)) :=
  funext fun w => (exit_arr m c w).symm

theorem hsplit0 (c : Dev nD) :
    (Pipeline.arrBufs (Ix := Unit) (Name := ℕ) (U := UR sig nD τ) (Lvl := ℕ) spec0 c (fun b => V0 m c (Proc.devRef .tc b)) : sProp 𝕄)
      ⊢ (dats m 0 c).arrays (fun w => (dats m 0 c).arrAt w 0) := by
  rw [entry_fun]; exact deal m c _

theorem hjoin0 (c : Dev nD) :
    (dats m 0 c).arrays (fun w => (dats m 0 c).arrAt w cfg0.N)
      ⊢ (Pipeline.arrBufs (Ix := Unit) (Name := ℕ) (U := UR sig nD τ) (Lvl := ℕ) spec0 c
          (fun b => Cert.SharedFrame.exitVal cfgs (dats m) 0 (V0 m) c (Proc.devRef .tc b)) : sProp 𝕄) := by
  rw [exit_fun]; exact undeal m c (fun b => Cert.SharedFrame.exitVal cfgs (dats m) 0 (V0 m) c (Proc.devRef .tc b))

theorem hresplit0 (c : Dev nD) :
    (Pipeline.arrBufs (Ix := Unit) (Name := ℕ) (U := UR sig nD τ) (Lvl := ℕ) spec0 c
          (fun b => Cert.SharedFrame.exitVal cfgs (dats m) 0 (V0 m) c (Proc.devRef .tc b)) : sProp 𝕄)
      ⊢ (dats m 0 c).arrays (fun w => (dats m 0 c).arrAt w cfg0.N) := by
  rw [exit_fun]; exact deal m c _

/-! ## The run and the frame -/

set_option maxHeartbeats 2000000 in
set_option backward.isDefEq.respectTransparency.types false in
/-- From any memory with zero counters every weakly fair execution of the program terminates, each
    array of the call ending at what the proof data computes and every other unscoped buffer at
    what the host lines after the call leave. -/
theorem run_main : θ_run defs (onTc (τ := τ) (main (F := F))) (s₀ m ρ)
    (Pipeline.FramePost cfgs (dats m) 0 (Pipeline.afterTail₀ cfgs (dats m) 0 (V0 m) [hostOps1])) :=
  Cert.SharedFrame.θ_run_frame_around_shared cfgs (dats m) (0 : Fin 1) defs₀ Variants.none cellOf_inj winFacts₀0 block_pos0 arr_whole0 stage_whole0
    m ρ main (hbody := fun c => (body_obligation m c).loose) (howed := fun _ _ => rfl)
    (V₀ := V0 m) (opss := [hostOps1]) (hsub := sfx_sub) (hfresh := sfx_fresh) (hkeep := sfx_keeps)
    (hmain := hmain m Variants.none) (hΦ := fun _ _ => rfl)
    (hsplit := hsplit0 m) (hjoin := hjoin0 m) (hresplit := hresplit0 m)

/-- The program's result ends at what the host lines after the call leave in it, and the
    arguments end as launched. -/
theorem run_result : θ_run defs (onTc (τ := τ) (main (F := F))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).2 main_v8 (Pipeline.mem_restRefs_of main_v8 (by decide) (by decide)),
     (((h c).1 0).trans ((dats m 0 c).arrAt_in 0 rfl _)).trans ((A_eq m c 0).trans (V_main_arg0 m c)),
     (((h c).1 2).trans ((dats m 0 c).arrAt_in 2 rfl _)).trans ((A_eq m c 2).trans (V_main_arg1 m c)),
     ((h c).2 main_arg2 (Pipeline.mem_restRefs_of main_arg2 (by decide) (by decide))).trans (W_main_arg2 m c),
     (((h c).1 4).trans ((dats m 0 c).arrAt_in 4 rfl _)).trans ((A_eq m c 4).trans (V_main_arg3 m c)),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c)⟩)
    (run_main m ρ)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.Kernel.Hand

end
-- ==== Proof.KI.Data.lean ====
/-
  The proof data of the one pipelined call, at any float instance F.

  The call walks a grid of four points.  At point t it stages, from the activations x (16384 rows
  of 512), row block t through one window and row block 7 - t through a second window on the SAME
  array; the three weight matrices and the three bias rows whole (fetched once, at the first point);
  and it writes back two result blocks of 2048 rows by 128 columns, block t of the first result and
  block 3 - t of the second.  Each result block is one whole-block store of the three-layer payload
  of the staged inputs.  Because the two activation windows stage one array, that array is held
  half and half (q), the two halves making the whole.
-/
import proofs.«138592_g19258633355276_cont_8to1_1994_27_alg».proof.Proof.Gen.KernelIdeal.Launch
import proofs.«138592_g19258633355276_cont_8to1_1994_27_alg».proof.Proof.Gen.KernelIdeal.Skeleton
import proofs.«138592_g19258633355276_cont_8to1_1994_27_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F]

variable (m : (ℓ : Loc nD τ sig) → Buf (Elt F) ℓ)

/-- What core c's buffers hold when the call is entered: the host lines before it, applied to the
    launch memory (two bias reshapes, the last layer's weights and bias padded to 128 columns). -/
abbrev V0 (c : Dev nD) : Valuation τ sig (Elt F) :=
  StableHlo.after (List.flatten [hostOps0, hostOps0_1, hostOps0_2, hostOps0_3, hostOps0_4]) (fun b => m (c, b))
/-- The same, read at a reference of the core. -/
abbrev V (c : Dev nD) (b : Ref sig .tc) : Buf (Elt F) ((c : Thread nD τ).loc b) := V0 m c (Proc.devRef .tc b)

/-- Window w's block at point t, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-buffer rectangles the body loads and stores through. -/
abbrev rX : Rect S2048x512 := Rect.unit (s := S2048x512) ![0, 0] S2048x512.size inb_S2048x512_S2048x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rB : Rect S1x128 := Rect.unit (s := S1x128) ![0, 0] S1x128.size inb_S1x128_S1x128_0_0
abbrev rW3 : Rect S128x128 := Rect.unit (s := S128x128) ![0, 0] S128x128.size inb_S128x128_S128x128_0_0
abbrev rO : Rect S2048x128 := Rect.unit (s := S2048x128) ![0, 0] S2048x128.size inb_S2048x128_S2048x128_0_0

/-- The first result's staging buffer after the body: one store of the three-layer payload of the
    first activation block xa and the weights and biases. -/
def out0_8 (xa : Vec F S2048x512 .f32) (w1 : Vec F S512x256 .f32) (b1 : Vec F S1x256 .f32) (w2 : Vec F S256x128 .f32)
    (b2 : Vec F S1x128 .f32) (w3 : Vec F S128x128 .f32) (b3 : Vec F S1x128 .f32) : Vec F S2048x128 .f32 :=
  View.canon [⟨rO, k0_pay8 (View.ld w1 rW1) (View.ld w2 rW2) (View.ld w3 rW3) (View.ld b1 rB1) (View.ld b2 rB) (View.ld b3 rB) (View.ld xa rX)⟩]

/-- The second result's staging buffer after the body: the same payload of the second activation block xb. -/
def out0_9 (xb : Vec F S2048x512 .f32) (w1 : Vec F S512x256 .f32) (b1 : Vec F S1x256 .f32) (w2 : Vec F S256x128 .f32)
    (b2 : Vec F S1x128 .f32) (w3 : Vec F S128x128 .f32) (b3 : Vec F S1x128 .f32) : Vec F S2048x128 .f32 :=
  View.canon [⟨rO, k0_pay1 (k0_pay3 (View.ld w2 rW2)) (k0_pay4 (View.ld w3 rW3)) (k0_pay5 (View.ld b1 rB1)) (k0_pay6 (View.ld b2 rB))
    (k0_pay7 (View.ld b3 rB)) (k0_pay9 (View.ld w1 rW1) (View.ld xb rX))⟩]

/-- The proof data on core c: the arrays as the call finds them; after the body at point t each
    input buffer still at its block, each result buffer at its payload; the invariant the scoped
    buffers no window stages; the activations' array held half by each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 2 t) (iblk m c 3 t) (iblk m c 4 t) (iblk m c 5 t) (iblk m c 6 t) (iblk m c 7 t)
    | ⟨9, _⟩ => out0_9 (iblk m c 1 t) (iblk m c 2 t) (iblk m c 3 t) (iblk m c 4 t) (iblk m c 5 t) (iblk m c 6 t) (iblk m c 7 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

/-- The proof data's arrays are the entry contents (projected, never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t
    = out0_9 (iblk m c 1 t) (iblk m c 2 t) (iblk m c 3 t) (iblk m c 4 t) (iblk m c 5 t) (iblk m c 6 t) (iblk m c 7 t) := by dsimp only [dats]

end Cert.KernelIdeal.Hand

end
-- ==== Proof.KI.Body.lean ====
/-
  The body of the pipelined call at a grid point: from every input buffer at its block and the
  two result buffers at anything, it leaves the inputs as they were and each result buffer at its
  payload.
-/
import proofs.«138592_g19258633355276_cont_8to1_1994_27_alg».proof.Proof.KI.Data
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each input buffer holds when the body runs -/

/-- Input window 0's current buffer holds its block at every point, fetched there or not: unfetched,
    the block index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-- Input window 1's current buffer holds its block at every point, fetched there or not: unfetched,
    the block index has not moved and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- Input window 2's current buffer holds its block at every point, fetched there or not: unfetched,
    the block index has not moved and the body left the block in place. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- Input window 3's current buffer holds its block at every point, fetched there or not: unfetched,
    the block index has not moved and the body left the block in place. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- Input window 4's current buffer holds its block at every point, fetched there or not: unfetched,
    the block index has not moved and the body left the block in place. -/
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-- Input window 5's current buffer holds its block at every point, fetched there or not: unfetched,
    the block index has not moved and the body left the block in place. -/
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-- Input window 6's current buffer holds its block at every point, fetched there or not: unfetched,
    the block index has not moved and the body left the block in place. -/
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-- Input window 7's current buffer holds its block at every point, fetched there or not: unfetched,
    the block index has not moved and the body left the block in place. -/
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-! ## The two stores cover their buffers -/

/-- One store through the whole-buffer rectangle covers the buffer. -/
theorem cover_rO (p0 : Vec F S2048x128 .f32) (y : S2048x128.Idx) :
    ∃ pc ∈ ([⟨rO, p0⟩] : List (View.Piece (Elt F) S2048x128 .f32)), y ∈ pc.1.set :=
  View.cover_of_tiled [⟨rO, p0⟩] S2048x128.size (by rfl) y

/-! ## The body's triple -/

set_option maxHeartbeats 4000000 in
/-- The body on whole staging memrefs, the eight inputs' at read contents and the two results' at anything,
    runs to the continuation holding the inputs' as they were and each result's at its one store's payload:
    the loads read the held contents through the whole-buffer rectangles, the load of a result buffer before
    its store reads an unused value, and the store through the whole-buffer rectangle leaves its canon. -/
theorem sound_kernel (c : Dev nD) (E : Set ℕ) (i : grid0.Coords)
    (arg1 : Memref sig .tc .vmem S2048x512 .f32) (harg1 : arg1.IsWhole)
    (arg2 : Memref sig .tc .vmem S2048x512 .f32) (harg2 : arg2.IsWhole)
    (arg3 : Memref sig .tc .vmem S512x256 .f32) (harg3 : arg3.IsWhole)
    (arg4 : Memref sig .tc .vmem S1x256 .f32) (harg4 : arg4.IsWhole)
    (arg5 : Memref sig .tc .vmem S256x128 .f32) (harg5 : arg5.IsWhole)
    (arg6 : Memref sig .tc .vmem S1x128 .f32) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S2048x128 .f32) (harg9 : arg9.IsWhole)
    (arg10 : Memref sig .tc .vmem S2048x128 .f32) (harg10 : arg10.IsWhole)
    (xa : Vec F S2048x512 .f32) (xb : Vec F S2048x512 .f32) (w1 : Vec F S512x256 .f32) (b1 : Vec F S1x256 .f32) (w2 : Vec F S256x128 .f32) (b2 : Vec F S1x128 .f32) (w3 : Vec F S128x128 .f32) (b3 : Vec F S1x128 .f32)
    (K : PUnit → sProp 𝕄) :
    iprop(owns (c : Thread nD τ) arg1 fullShare xa ∗ owns (c : Thread nD τ) arg2 fullShare xb ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare w3 ∗ owns (c : Thread nD τ) arg8 fullShare b3
        ∗ (∃ d, owns (c : Thread nD τ) arg9 fullShare d) ∗ (∃ d, owns (c : Thread nD τ) arg10 fullShare d)
        ∗ (iprop(owns (c : Thread nD τ) arg1 fullShare xa ∗ owns (c : Thread nD τ) arg2 fullShare xb ∗ owns (c : Thread nD τ) arg3 fullShare w1 ∗ owns (c : Thread nD τ) arg4 fullShare b1 ∗ owns (c : Thread nD τ) arg5 fullShare w2 ∗ owns (c : Thread nD τ) arg6 fullShare b2 ∗ owns (c : Thread nD τ) arg7 fullShare w3 ∗ owns (c : Thread nD τ) arg8 fullShare b3
            ∗ owns (c : Thread nD τ) arg9 fullShare (out0_8 xa w1 b1 w2 b2 w3 b3)
            ∗ owns (c : Thread nD τ) arg10 fullShare (out0_9 xb w1 b1 w2 b2 w3 b3)) -∗ K ⟨⟩))
      ⊢ wp frame (wpE (defs₀ (F := F)) Variants.none c none) E (cc0__mlp_block i arg1 harg1 arg2 harg2 arg3 harg3 arg4 harg4 arg5 harg5 arg6 harg6 arg7 harg7 arg8 harg8 arg9 harg9 arg10 harg10) K := by
  simp only [cc0__mlp_block_eq_skeleton]; unfold cc0__mlp_block_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_rO _)
  iexists _; isplitr
  swap; · iexact H9
  ipureintro
  exact View.read_writes_eq_canon _ _ _ (cover_rO _)

/-! ## The body obligation, at a generic point -/

/-- What the body is called with at point t: the invariant, what the core owes, and the ten windows'
    current buffers one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the eight input buffers hold their blocks, so the body's triple applies;
    the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the proof data, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Kept.lean ====
/-
  The argument arrays are as launched when the call is entered, and still after the host lines
  that follow it: no host line writes an argument, and the call writes only its two results.
-/
import proofs.«138592_g19258633355276_cont_8to1_1994_27_alg».proof.Proof.KI.Data

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- None of the reference's device buffer is written by any line of the five host stretches before
    the call: each line writes its own result only, and no result is the reference. -/
local macro "not_written_before" r:term : tactic => `(tactic| (
  refine StableHlo.after_of_forall_not_mem (b := Proc.devRef .tc $r) _ _ (List.forall_iff_forall_mem.mp ?_)
  simp only [hostOps0, hostOps0_1, hostOps0_2, hostOps0_3, hostOps0_4, List.flatten_cons, List.flatten_nil,
    List.append_nil, List.cons_append, List.nil_append, List.Forall, StableHlo.TRef.unary, StableHlo.TRef.binary,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- No host line before the call writes an argument: the call finds each as launched. -/
theorem V_main_arg0 (c : Dev nD) : V m c main_arg0 = m ((c : Thread nD τ).loc main_arg0) := by
  not_written_before main_arg0
theorem V_main_arg1 (c : Dev nD) : V m c main_arg1 = m ((c : Thread nD τ).loc main_arg1) := by
  not_written_before main_arg1
theorem V_main_arg2 (c : Dev nD) : V m c main_arg2 = m ((c : Thread nD τ).loc main_arg2) := by
  not_written_before main_arg2
theorem V_main_arg3 (c : Dev nD) : V m c main_arg3 = m ((c : Thread nD τ).loc main_arg3) := by
  not_written_before main_arg3
theorem V_main_arg4 (c : Dev nD) : V m c main_arg4 = m ((c : Thread nD τ).loc main_arg4) := by
  not_written_before main_arg4
theorem V_main_arg5 (c : Dev nD) : V m c main_arg5 = m ((c : Thread nD τ).loc main_arg5) := by
  not_written_before main_arg5
theorem V_main_arg6 (c : Dev nD) : V m c main_arg6 = m ((c : Thread nD τ).loc main_arg6) := by
  not_written_before main_arg6

/-- After the call the host lines that follow write only their own three results, and the call
    rewrites only its windows' arrays; a reference that is neither holds what the call found. -/
local macro "not_written_after" r:term : tactic => `(tactic| (
  unfold Pipeline.afterTail₀
  rw [StableHlo.after_of_forall_not_mem (b := Proc.devRef .tc $r) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))),
    Pipeline.withArrays_of_ne _ _ _ _ $r (by exact (by decide : ∀ w, Pipeline.arrRef spec0 w ≠ $r))]))

/-- No host line after the call writes one of the four arguments the call does not stage, and
    none is an array of the call: each ends as launched. -/
theorem W_main_arg2 (c : Dev nD) :
    Pipeline.afterTail₀ cfgs (dats m) 0 (V0 m) [hostOps1] c main_arg2 = m ((c : Thread nD τ).loc main_arg2) := by
  not_written_after main_arg2
  exact V_main_arg2 m c
theorem W_main_arg4 (c : Dev nD) :
    Pipeline.afterTail₀ cfgs (dats m) 0 (V0 m) [hostOps1] c main_arg4 = m ((c : Thread nD τ).loc main_arg4) := by
  not_written_after main_arg4
  exact V_main_arg4 m c
theorem W_main_arg5 (c : Dev nD) :
    Pipeline.afterTail₀ cfgs (dats m) 0 (V0 m) [hostOps1] c main_arg5 = m ((c : Thread nD τ).loc main_arg5) := by
  not_written_after main_arg5
  exact V_main_arg5 m c
theorem W_main_arg6 (c : Dev nD) :
    Pipeline.afterTail₀ cfgs (dats m) 0 (V0 m) [hostOps1] c main_arg6 = m ((c : Thread nD τ).loc main_arg6) := by
  not_written_after main_arg6
  exact V_main_arg6 m c

end Cert.KernelIdeal.Hand

end
-- ==== Proof.KI.Run.lean ====
/-
  The run of the whole program at any float instance: the host lines before the call, the call,
  the host lines after it.  The activations' array is staged by two windows, so its buffer is
  dealt to them half and half when the call is entered and made whole again when it returns; every
  other staged array belongs to one window, whole.  The arguments end as launched: none is written
  by a host line, and the call writes only its two results.
-/
import proofs.«138592_g19258633355276_cont_8to1_1994_27_alg».proof.Proof.KI.Data
import proofs.«138592_g19258633355276_cont_8to1_1994_27_alg».proof.Proof.KI.Body
import proofs.«138592_g19258633355276_cont_8to1_1994_27_alg».proof.Proof.KI.Kept
import proofs.«138592_g19258633355276_cont_8to1_1994_27_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the five host stretches, the call, and one more host stretch: it reduces to the
    call continued by the last stretch, entered at the contents the first five leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The host lines after the call -/

/-- They touch buffers of the core only, -/
theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the call (each writes its own result, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The buffers behind the windows, and the windows' holdings of them -/

/-- The nine distinct buffers behind the ten windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0) ∗ (((c : Thread nD τ).loc main_arg3) ↦{fullShare} W main_arg3)
          ∗ (((c : Thread nD τ).loc main_v1) ↦{fullShare} W main_v1) ∗ (((c : Thread nD τ).loc main_v2) ↦{fullShare} W main_v2)
          ∗ (((c : Thread nD τ).loc main_v4) ↦{fullShare} W main_v4) ∗ (((c : Thread nD τ).loc main_v5_0) ↦{fullShare} W main_v5_0)
          ∗ (((c : Thread nD τ).loc main_v5_1) ↦{fullShare} W main_v5_1)) := by
  unfold Pipeline.arrBufs
  exact bigSep_eq_bigSepL_of_eq [main_arg0, main_arg1, main_v0, main_arg3, main_v1, main_v2, main_v4, main_v5_0, main_v5_1] (by decide) (by decide) _

/-- The windows' holdings, each a whole buffer at the window's share. -/
theorem arrays0_eq (c : Dev nD) (Fa : (w : Fin cfg0.W) → Buf (Elt F) ((cfg0.win w).arr.view.loc (c.tc : Thread nD τ))) :
    (dats m 0 c).arrays Fa
      = bigSep Finset.univ fun w : Fin cfg0.W => (((c.tc : Thread nD τ).loc (Pipeline.arrRef spec0 w)) ↦{(dats m 0 c).share w} Fa w : sProp 𝕄) := by
  unfold Dat.arrays
  exact bigSep_congr fun w _ => by rw [(arr_whole0 w).set_eq_univ]

/-- DEALING: the activations' buffer, whole, is a half for each of its two windows; every other
    buffer goes whole to its one window. -/
theorem deal (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      ⊢ (dats m 0 c).arrays (fun w => W (Pipeline.arrRef spec0 w)) := by
  rw [arrBufs0_eq, arrays0_eq, bigSep_W0]
  iintro ⟨Hx, H1, H2, H3, H4, H5, H6, H7, H8⟩
  ihave Hx2 := (pointsTo_share (PosShare.mem_left_op_right fullShare)).1 $$ Hx
  icases Hx2 with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And back: the two halves of the activations' buffer make it whole. -/
theorem undeal (c : Dev nD) (W : (b : Ref sig .tc) → Buf (Elt F) ((c : Thread nD τ).loc b)) :
    (dats m 0 c).arrays (fun w => W (Pipeline.arrRef spec0 w))
      ⊢ (Pipeline.arrBufs (Ix := Unit) (Name := ℕ) (U := UR sig nD τ) (Lvl := ℕ) spec0 c W : sProp 𝕄) := by
  rw [arrBufs0_eq, arrays0_eq, bigSep_W0]
  iintro ⟨Hl, Hr, H1, H2, H3, H4, H5, H6, H7, H8⟩
  ihave Hx := (pointsTo_share (PosShare.mem_left_op_right fullShare)).2 $$ [Hl Hr]
  · isplitl [Hl]; · iexact Hl
    iexact Hr
  isplitl [Hx]; · iexact Hx
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The two windows on the activations' array end with the same contents for it: neither writes. -/
theorem agree01 (c : Dev nD) : HEq ((dats m 0 c).arrAt 0 cfg0.N) ((dats m 0 c).arrAt 1 cfg0.N) := by
  rw [(dats m 0 c).arrAt_in 0 rfl, (dats m 0 c).arrAt_in 1 rfl, A_eq, A_eq]

/-- Two windows stage one array only if they are one window, or the two activation windows. -/
theorem same_arr : ∀ w w' : Fin 10, Pipeline.arrRef spec0 w' = Pipeline.arrRef spec0 w →
    w' = w ∨ ((w' = 0 ∨ w' = 1) ∧ (w = 0 ∨ w = 1)) := by decide

/-- The exit contents at each window's array are what the proof data computes for the window. -/
theorem exit_arr (c : Dev nD) (w : Fin cfg0.W) :
    Cert.SharedFrame.exitVal cfgs (dats m) 0 (V0 m) c (Proc.devRef .tc (Pipeline.arrRef spec0 w)) = (dats m 0 c).arrAt w cfg0.N :=
  Cert.SharedFrame.withArrays_arr_of_agree spec0 c (V0 m c) (fun w => (dats m 0 c).arrAt w cfg0.N) w (by
    intro w' h
    rcases same_arr w w' h with rfl | ⟨h1 | h1, h2 | h2⟩
    · exact HEq.rfl
    · subst h1; subst h2; exact HEq.rfl
    · subst h1; subst h2; exact agree01 m c
    · subst h1; subst h2; exact (agree01 m c).symm
    · subst h1; subst h2; exact HEq.rfl)

/-- At entry the windows hold the entry contents. -/
theorem entry_fun (c : Dev nD) :
    (fun w => (dats m 0 c).arrAt w 0) = fun w : Fin cfg0.W => V m c (Pipeline.arrRef spec0 w) :=
  funext fun w => by rw [Dat.arrAt]; exact A_eq m c w

/-- At exit the windows hold the exit contents. -/
theorem exit_fun (c : Dev nD) :
    (fun w => (dats m 0 c).arrAt w cfg0.N)
      = fun w : Fin cfg0.W => Cert.SharedFrame.exitVal cfgs (dats m) 0 (V0 m) c (Proc.devRef .tc (Pipeline.arrRef spec0 w)) :=
  funext fun w => (exit_arr m c w).symm

theorem hsplit0 (c : Dev nD) :
    (Pipeline.arrBufs (Ix := Unit) (Name := ℕ) (U := UR sig nD τ) (Lvl := ℕ) spec0 c (fun b => V0 m c (Proc.devRef .tc b)) : sProp 𝕄)
      ⊢ (dats m 0 c).arrays (fun w => (dats m 0 c).arrAt w 0) := by
  rw [entry_fun]; exact deal m c _

theorem hjoin0 (c : Dev nD) :
    (dats m 0 c).arrays (fun w => (dats m 0 c).arrAt w cfg0.N)
      ⊢ (Pipeline.arrBufs (Ix := Unit) (Name := ℕ) (U := UR sig nD τ) (Lvl := ℕ) spec0 c
          (fun b => Cert.SharedFrame.exitVal cfgs (dats m) 0 (V0 m) c (Proc.devRef .tc b)) : sProp 𝕄) := by
  rw [exit_fun]; exact undeal m c (fun b => Cert.SharedFrame.exitVal cfgs (dats m) 0 (V0 m) c (Proc.devRef .tc b))

theorem hresplit0 (c : Dev nD) :
    (Pipeline.arrBufs (Ix := Unit) (Name := ℕ) (U := UR sig nD τ) (Lvl := ℕ) spec0 c
          (fun b => Cert.SharedFrame.exitVal cfgs (dats m) 0 (V0 m) c (Proc.devRef .tc b)) : sProp 𝕄)
      ⊢ (dats m 0 c).arrays (fun w => (dats m 0 c).arrAt w cfg0.N) := by
  rw [exit_fun]; exact deal m c _

/-! ## The run and the frame -/

set_option maxHeartbeats 2000000 in
set_option backward.isDefEq.respectTransparency.types false in
/-- From any memory with zero counters every weakly fair execution of the program terminates, each
    array of the call ending at what the proof data computes and every other unscoped buffer at
    what the host lines after the call leave. -/
theorem run_main : θ_run defs (onTc (τ := τ) (main (F := F))) (s₀ m ρ)
    (Pipeline.FramePost cfgs (dats m) 0 (Pipeline.afterTail₀ cfgs (dats m) 0 (V0 m) [hostOps1])) :=
  Cert.SharedFrame.θ_run_frame_around_shared cfgs (dats m) (0 : Fin 1) defs₀ Variants.none cellOf_inj winFacts₀0 block_pos0 arr_whole0 stage_whole0
    m ρ main (hbody := fun c => (body_obligation m c).loose) (howed := fun _ _ => rfl)
    (V₀ := V0 m) (opss := [hostOps1]) (hsub := sfx_sub) (hfresh := sfx_fresh) (hkeep := sfx_keeps)
    (hmain := hmain m Variants.none) (hΦ := fun _ _ => rfl)
    (hsplit := hsplit0 m) (hjoin := hjoin0 m) (hresplit := hresplit0 m)

/-- The program's result ends at what the host lines after the call leave in it, and the
    arguments end as launched. -/
theorem run_result : θ_run defs (onTc (τ := τ) (main (F := F))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).2 main_v8 (Pipeline.mem_restRefs_of main_v8 (by decide) (by decide)),
     (((h c).1 0).trans ((dats m 0 c).arrAt_in 0 rfl _)).trans ((A_eq m c 0).trans (V_main_arg0 m c)),
     (((h c).1 2).trans ((dats m 0 c).arrAt_in 2 rfl _)).trans ((A_eq m c 2).trans (V_main_arg1 m c)),
     ((h c).2 main_arg2 (Pipeline.mem_restRefs_of main_arg2 (by decide) (by decide))).trans (W_main_arg2 m c),
     (((h c).1 4).trans ((dats m 0 c).arrAt_in 4 rfl _)).trans ((A_eq m c 4).trans (V_main_arg3 m c)),
     ((h c).2 main_arg4 (Pipeline.mem_restRefs_of main_arg4 (by decide) (by decide))).trans (W_main_arg4 m c),
     ((h c).2 main_arg5 (Pipeline.mem_restRefs_of main_arg5 (by decide) (by decide))).trans (W_main_arg5 m c),
     ((h c).2 main_arg6 (Pipeline.mem_restRefs_of main_arg6 (by decide) (by decide))).trans (W_main_arg6 m c)⟩)
    (run_main m ρ)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_result m ρ)

end Cert.KernelIdeal.Hand

end
-- ==== Proof.Spec.lean ====
/-
  The function both programs compute, stated once over plain coordinates.

  A dense layer sends a matrix X (rows p, columns k) to X·W + b: entry (p, q) is the sum over k of
  X(p,k)·W(k,q), plus b(q).  The encoder is three such layers with max(·, 0) after the first two.
  Everything is over the extended reals; sums are finite sums in an additive commutative monoid, so
  no order of summation is chosen.  Entry (p, q) of the result depends on X only through row p, and
  on the last layer only through column q of its weights and entry q of its bias (mlp3_congr): this
  is what lets a row block of X, and a last layer padded with extra columns, be read as the whole.
-/
import Idealize.ShloMosaic.PureOps.Ideal
import Idealize.ShloMosaic.Lib.ValueIdx

noncomputable section

namespace Cert.Mlp

open Idealize.ShloMosaic

/-- Entry (p, q) of X·W + b. -/
def layer {A K B : Nat} (X : Fin A → Fin K → EReal) (W : Fin K → Fin B → EReal) (b : Fin B → EReal)
    (p : Fin A) (q : Fin B) : EReal :=
  (∑ k : Fin K, X p k * W k q) + b q

/-- max(·, 0). -/
def relu (x : EReal) : EReal := max x 0

/-- Entry (p, q) of relu(relu(X·W1 + b1)·W2 + b2)·W3 + b3. -/
def mlp3 {A d0 d1 d2 d3 : Nat} (X : Fin A → Fin d0 → EReal)
    (W1 : Fin d0 → Fin d1 → EReal) (b1 : Fin d1 → EReal)
    (W2 : Fin d1 → Fin d2 → EReal) (b2 : Fin d2 → EReal)
    (W3 : Fin d2 → Fin d3 → EReal) (b3 : Fin d3 → EReal) (p : Fin A) (q : Fin d3) : EReal :=
  layer (fun p k => relu (layer (fun p j => relu (layer X W1 b1 p j)) W2 b2 p k)) W3 b3 p q

/-- Entry (p, q) reads X only in row p, W3 only in column q, b3 only at q. -/
theorem mlp3_congr {A A' d0 d1 d2 d3 d3' : Nat} {X : Fin A → Fin d0 → EReal} {X' : Fin A' → Fin d0 → EReal}
    (W1 : Fin d0 → Fin d1 → EReal) (b1 : Fin d1 → EReal) (W2 : Fin d1 → Fin d2 → EReal) (b2 : Fin d2 → EReal)
    {W3 : Fin d2 → Fin d3 → EReal} {b3 : Fin d3 → EReal} {W3' : Fin d2 → Fin d3' → EReal} {b3' : Fin d3' → EReal}
    {p : Fin A} {p' : Fin A'} {q : Fin d3} {q' : Fin d3'}
    (hX : ∀ i, X p i = X' p' i) (hW : ∀ k, W3 k q = W3' k q') (hb : b3 q = b3' q') :
    mlp3 X W1 b1 W2 b2 W3 b3 p q = mlp3 X' W1 b1 W2 b2 W3' b3' p' q' := by
  simp only [mlp3, layer, hX, hW, hb]

end Cert.Mlp

end
-- ==== Proof.KI.Payload.lean ====
/-
  The body's two stored payloads read at an entry, at the ideal instance: each is the three-layer
  function of the staged activation block and the staged weights and biases.
-/
import proofs.«138592_g19258633355276_cont_8to1_1994_27_alg».proof.Proof.Gen.KernelIdeal.Skeleton
import proofs.«138592_g19258633355276_cont_8to1_1994_27_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.TcCoe Idealize.ShloMosaic.ValueIdx
open Idealize.SL Idealize.SL.Sem
open Cert.KernelIdeal Cert.KernelIdeal.Gen

/-! ## A rows-by-columns product read at an entry -/

section Dense
variable {A K B : Nat}

/-- The contraction record of an [A,K] by [K,B] product (the left operand's axis 1 against the right
    operand's axis 0, no batch axis) over literal extents, from its well-formedness fact. -/
abbrev rc (w : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  { lhsContracting := [1], rhsContracting := [0], lhsNonContracting := [0], rhsNonContracting := [1],
    lhsBatch := [], rhsBatch := [], wf := w }

variable (w : DotDims.WF (⟨2, ![A, K]⟩ : Shape) ⟨2, ![K, B]⟩ ⟨2, ![A, B]⟩ [1] [0] [0] [1] [] [])

/-- The left operand is read in the result's row … -/
theorem rc_lhs0 (i : (⟨2, ![A, B]⟩ : Shape).Idx) (k : (rc w).contr.Idx) :
    ((rc w).lhsIdx i k 0).val = (i 0).val := by
  unfold DotDims.lhsIdx
  rw [dif_neg (show ¬(0 : Fin (⟨2, ![A, K]⟩ : Shape).rank) ∈ (rc w).lhsBatch from List.not_mem_nil),
    dif_pos (show (0 : Fin (⟨2, ![A, K]⟩ : Shape).rank) ∈ (rc w).lhsNonContracting from List.mem_singleton.mpr rfl)]
  rfl
/-- … at the contraction position; -/
theorem rc_lhs1 (i : (⟨2, ![A, B]⟩ : Shape).Idx) (k : (rc w).contr.Idx) :
    ((rc w).lhsIdx i k 1).val = (k ⟨0, Nat.one_pos⟩).val :=
  (rc w).lhsIdx_val_of_single rfl i k
/-- the right operand at the contraction position … -/
theorem rc_rhs0 (i : (⟨2, ![A, B]⟩ : Shape).Idx) (k : (rc w).contr.Idx) :
    ((rc w).rhsIdx i k 0).val = (k ⟨0, Nat.one_pos⟩).val :=
  (rc w).rhsIdx_val_of_single rfl i k
/-- … in the result's column. -/
theorem rc_rhs1 (i : (⟨2, ![A, B]⟩ : Shape).Idx) (k : (rc w).contr.Idx) :
    ((rc w).rhsIdx i k 1).val = (i 1).val := by
  unfold DotDims.rhsIdx
  rw [dif_neg (show ¬(1 : Fin (⟨2, ![K, B]⟩ : Shape).rank) ∈ (rc w).rhsBatch from List.not_mem_nil),
    dif_pos (show (1 : Fin (⟨2, ![K, B]⟩ : Shape).rank) ∈ (rc w).rhsNonContracting from List.mem_singleton.mpr rfl)]
  rfl

/-- A product accumulated into the zero splat, at row p and column q: the sum over k of L(p,k)·R(k,q). -/
theorem matmul_rc_apply {φ₁ φ₂ : FTy} (L : FVec Ideal (⟨2, ![A, K]⟩ : Shape) φ₁) (R : FVec Ideal (⟨2, ![K, B]⟩ : Shape) φ₂)
    (p : Fin A) (q : Fin B) :
    matmul (rc w) none L R (constant (F := Ideal) (⟨2, ![A, B]⟩ : Shape) .f32 0x00000000#32) (ix2 p q)
      = ∑ k : Fin K, L (ix2 p k) * R (ix2 k q) := by
  refine (Ideal.matmul_constant_zero_apply (rc w) none L R (ix2 p q)).trans ?_
  rw [← Equiv.sum_comp (contrEquiv1 (rc w) K rfl rfl).symm]
  refine Finset.sum_congr rfl fun k _ => ?_
  have hk := contrEquiv1_symm_val (rc w) K rfl rfl k
  have el : (rc w).lhsIdx (ix2 p q) ((contrEquiv1 (rc w) K rfl rfl).symm k) = ix2 p k := funext fun a => Fin.ext (by
    match a with
    | ⟨0, _⟩ => exact rc_lhs0 w _ _
    | ⟨1, _⟩ => exact (rc_lhs1 w _ _).trans hk)
  have er : (rc w).rhsIdx (ix2 p q) ((contrEquiv1 (rc w) K rfl rfl).symm k) = ix2 k q := funext fun a => Fin.ext (by
    match a with
    | ⟨0, _⟩ => exact (rc_rhs0 w _ _).trans hk
    | ⟨1, _⟩ => exact rc_rhs1 w _ _)
  rw [el, er]

end Dense

/-! ## One dense layer, and the maximum with zero -/

section Layer
variable {A K B : Nat}
variable (w : DotDims.WF (⟨2, ![A, K]⟩ : Shape) ⟨2, ![K, B]⟩ ⟨2, ![A, B]⟩ [1] [0] [0] [1] [] [])

/-- A product into the zero splat plus a one-row array laid along every row, at (p, q): entry (p, q) of L·R + b. -/
theorem dense_apply {φ₁ φ₂ : FTy} (L : FVec Ideal (⟨2, ![A, K]⟩ : Shape) φ₁) (R : FVec Ideal (⟨2, ![K, B]⟩ : Shape) φ₂)
    (b : FVec Ideal (⟨2, ![1, B]⟩ : Shape) .f32) (hb : (⟨2, ![1, B]⟩ : Shape).Broadcasts ⟨2, ![A, B]⟩) (p : Fin A) (q : Fin B) :
    addf (matmul (rc w) none L R (constant (F := Ideal) (⟨2, ![A, B]⟩ : Shape) .f32 0x00000000#32))
        (broadcastTo (⟨2, ![A, B]⟩ : Shape) b hb) (ix2 p q)
      = Cert.Mlp.layer (fun p k => L (ix2 p k)) (fun k q => R (ix2 k q)) (fun q => b (ix2 (0 : Fin 1) q)) p q := by
  refine (addf_apply _ _ (ix2 p q)).trans ?_
  rw [matmul_rc_apply w L R p q, broadcastTo_1b_ab_apply b hb p q]
  rfl

end Layer

/-- The maximum with the splat of the zero word is max(·, 0). -/
theorem relu_apply {s : Shape} (x : FVec Ideal s .f32) (i : s.Idx) :
    maximumf x (broadcast s (Scalar.ofBits (F := Ideal) .f32 0x00000000#32)) i = Cert.Mlp.relu (x i) := by
  refine (maximumf_apply _ _ i).trans ?_
  show max (x i) (Ideal.ofBits .f32 0x00000000#32) = max (x i) 0
  rw [Ideal.ofBits_zero_f32]

/-- Entry (p, q) of a dense layer reads the activations in row p, the weights in column q, the bias at q. -/
theorem layer_congr {A K B : Nat} {X X' : Fin A → Fin K → EReal} {W W' : Fin K → Fin B → EReal} {b b' : Fin B → EReal}
    {p : Fin A} {q : Fin B} (hX : ∀ k, X p k = X' p k) (hW : ∀ k, W k q = W' k q) (hb : b q = b' q) :
    Cert.Mlp.layer X W b p q = Cert.Mlp.layer X' W' b' p q := by
  simp only [Cert.Mlp.layer, hX, hW, hb]

/-! ## The staged weights and biases as the body reads them -/

theorem pay2_apply (v0 : Vec Ideal S512x256 .f32) (i : S512x256.Idx) : k0_pay2 (F := Ideal) v0 i = v0 i := rfl
theorem pay3_apply (v2 : Vec Ideal S256x128 .f32) (i : S256x128.Idx) : k0_pay3 (F := Ideal) v2 i = v2 i := rfl
theorem pay4_apply (v4 : Vec Ideal S128x128 .f32) (i : S128x128.Idx) : k0_pay4 (F := Ideal) v4 i = v4 i := by
  unfold k0_pay4
  rw [shapeCast_self]
  rfl
theorem pay5_apply (v7 : Vec Ideal S1x256 .f32) (i : S1x256.Idx) : k0_pay5 (F := Ideal) v7 i = v7 i := by
  unfold k0_pay5
  rw [shapeCast_self]
theorem pay6_apply (v9 : Vec Ideal S1x128 .f32) (i : S1x128.Idx) : k0_pay6 (F := Ideal) v9 i = v9 i := by
  unfold k0_pay6
  rw [shapeCast_self]
theorem pay7_apply (v11 : Vec Ideal S1x128 .f32) (i : S1x128.Idx) : k0_pay7 (F := Ideal) v11 i = v11 i := by
  unfold k0_pay7
  rw [shapeCast_self]

/-! ## The two stored payloads -/

/-- The first result's payload at row p, column q. -/
theorem pay8_apply (v0 : Vec Ideal S512x256 .f32) (v2 : Vec Ideal S256x128 .f32) (v4 : Vec Ideal S128x128 .f32)
    (v7 : Vec Ideal S1x256 .f32) (v9 : Vec Ideal S1x128 .f32) (v11 : Vec Ideal S1x128 .f32) (v13 : Vec Ideal S2048x512 .f32)
    (p : Fin 2048) (q : Fin 128) :
    k0_pay8 (F := Ideal) v0 v2 v4 v7 v9 v11 v13 (ix2 p q)
      = Cert.Mlp.mlp3 (fun (p : Fin 2048) (i : Fin 512) => v13 (ix2 p i)) (fun (i : Fin 512) (j : Fin 256) => v0 (ix2 i j))
          (fun (j : Fin 256) => v7 (ix2 (0 : Fin 1) j)) (fun (j : Fin 256) (k : Fin 128) => v2 (ix2 j k))
          (fun (k : Fin 128) => v9 (ix2 (0 : Fin 1) k)) (fun (k : Fin 128) (q : Fin 128) => v4 (ix2 k q))
          (fun (q : Fin 128) => v11 (ix2 (0 : Fin 1) q)) p q := by
  unfold k0_pay8 Cert.Mlp.mlp3
  refine (dense_apply dot_S2048x128_S128x128_S2048x128_1_0_0_1_n_n_wf _ _ _ broadcasts_S1x128_S2048x128 p q).trans ?_
  refine layer_congr (fun k => ?_) (fun k => pay4_apply v4 _) (pay7_apply v11 _)
  refine (truncf_apply (ψ := .bf16) _ bitsLt_bf16_f32 (ix2 p k)).trans ?_
  refine (relu_apply _ (ix2 p k)).trans (congrArg Cert.Mlp.relu ?_)
  refine (dense_apply dot_S2048x256_S256x128_S2048x128_1_0_0_1_n_n_wf _ _ _ broadcasts_S1x128_S2048x128 p k).trans ?_
  refine layer_congr (fun j => ?_) (fun j => pay3_apply v2 _) (pay6_apply v9 _)
  refine (truncf_apply (ψ := .bf16) _ bitsLt_bf16_f32 (ix2 p j)).trans ?_
  refine (relu_apply _ (ix2 p j)).trans (congrArg Cert.Mlp.relu ?_)
  refine (dense_apply dot_S2048x512_S512x256_S2048x256_1_0_0_1_n_n_wf _ _ _ broadcasts_S1x256_S2048x256 p j).trans ?_
  exact layer_congr (fun i => truncf_apply (ψ := .bf16) _ bitsLt_bf16_f32 (ix2 p i)) (fun i => pay2_apply v0 _) (pay5_apply v7 _)

/-- The second result's payload at row p, column q. -/
theorem pay1_apply (v0 : Vec Ideal S512x256 .f32) (v2 : Vec Ideal S256x128 .f32) (v4 : Vec Ideal S128x128 .f32)
    (v7 : Vec Ideal S1x256 .f32) (v9 : Vec Ideal S1x128 .f32) (v11 : Vec Ideal S1x128 .f32) (v31 : Vec Ideal S2048x512 .f32)
    (p : Fin 2048) (q : Fin 128) :
    k0_pay1 (F := Ideal) (k0_pay3 v2) (k0_pay4 v4) (k0_pay5 v7) (k0_pay6 v9) (k0_pay7 v11) (k0_pay9 v0 v31) (ix2 p q)
      = Cert.Mlp.mlp3 (fun (p : Fin 2048) (i : Fin 512) => v31 (ix2 p i)) (fun (i : Fin 512) (j : Fin 256) => v0 (ix2 i j))
          (fun (j : Fin 256) => v7 (ix2 (0 : Fin 1) j)) (fun (j : Fin 256) (k : Fin 128) => v2 (ix2 j k))
          (fun (k : Fin 128) => v9 (ix2 (0 : Fin 1) k)) (fun (k : Fin 128) (q : Fin 128) => v4 (ix2 k q))
          (fun (q : Fin 128) => v11 (ix2 (0 : Fin 1) q)) p q := by
  unfold k0_pay1 k0_pay9 Cert.Mlp.mlp3
  refine (dense_apply dot_S2048x128_S128x128_S2048x128_1_0_0_1_n_n_wf _ _ _ broadcasts_S1x128_S2048x128 p q).trans ?_
  refine layer_congr (fun k => ?_) (fun k => pay4_apply v4 _) (pay7_apply v11 _)
  refine (truncf_apply (ψ := .bf16) _ bitsLt_bf16_f32 (ix2 p k)).trans ?_
  refine (relu_apply _ (ix2 p k)).trans (congrArg Cert.Mlp.relu ?_)
  refine (dense_apply dot_S2048x256_S256x128_S2048x128_1_0_0_1_n_n_wf _ _ _ broadcasts_S1x128_S2048x128 p k).trans ?_
  refine layer_congr (fun j => ?_) (fun j => pay3_apply v2 _) (pay6_apply v9 _)
  refine (truncf_apply (ψ := .bf16) _ bitsLt_bf16_f32 (ix2 p j)).trans ?_
  refine (relu_apply _ (ix2 p j)).trans (congrArg Cert.Mlp.relu ?_)
  refine (dense_apply dot_S2048x512_S512x256_S2048x256_1_0_0_1_n_n_wf _ _ _ broadcasts_S1x256_S2048x256 p j).trans ?_
  exact layer_congr (fun i => truncf_apply (ψ := .bf16) _ bitsLt_bf16_f32 (ix2 p i)) (fun i => pay2_apply v0 _) (pay5_apply v7 _)

end Cert.KernelIdeal.Pay

end
-- ==== Proof.KI.Final.lean ====
/-
  From result blocks to result arrays, at the ideal instance.  Point t writes back block t of the
  first result, computed from rows 2048·t … of the activations, and block 3 - t of the second,
  computed from row block 7 - t = 4 + (3 - t): so row r of the first result is the three-layer
  function of activation row r, row r of the second that of activation row 8192 + r, and the four
  blocks of each result cover its 8192 rows.
-/
import proofs.«138592_g19258633355276_cont_8to1_1994_27_alg».proof.Proof.KI.Data
import proofs.«138592_g19258633355276_cont_8to1_1994_27_alg».proof.Proof.KI.Payload
import Idealize.ShloMosaic.Lib.Pipeline.Value

set_option maxRecDepth 16384

noncomputable section

namespace Cert.KernelIdeal.Fin

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The zero offsets of a whole-buffer rectangle, as the constant function. -/
theorem hz : (![0, 0] : Fin 2 → Nat) = fun _ => 0 := funext fun a => by fin_cases a <;> rfl

/-- The block indices at every point of the grid, decided once. -/
theorem idx_facts : ∀ t : Fin cfg0.N,
    win0_8.index t (0 : Fin 2) = t.val ∧ win0_8.index t (1 : Fin 2) = 0
    ∧ win0_9.index t (0 : Fin 2) = 3 - t.val ∧ win0_9.index t (1 : Fin 2) = 0
    ∧ win0_0.index t (0 : Fin 2) = t.val ∧ win0_0.index t (1 : Fin 2) = 0
    ∧ win0_1.index t (0 : Fin 2) = 7 - t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem t_lt (t : Fin cfg0.N) : t.val < 4 := lt_of_lt_of_eq t.isLt Gen.N_0

/-- A whole-array window's block is the array. -/
theorem iblk2_eq (c : Dev nD) (t : Fin cfg0.N) :
    (iblk m c 2 t : S512x256.Idx → EReal) = (V m c main_arg1 : S512x256.Idx → EReal) := by
  unfold iblk
  funext y
  show (V m c main_arg1 : S512x256.Idx → EReal) (((cfg0.win 2).blk t).view.emb y) = (V m c main_arg1 : S512x256.Idx → EReal) y
  refine congrArg _ (funext fun a => Fin.ext ?_)
  obtain ⟨-, -, -, -, -, -, -, -, e0, e1, -⟩ := idx_facts t
  match a with
  | ⟨0, _⟩ => show win0_2.index t (0 : Fin 2) * 512 + 1 * (y 0).val = (y 0).val; rw [e0]; omega
  | ⟨1, _⟩ => show win0_2.index t (1 : Fin 2) * 256 + 1 * (y 1).val = (y 1).val; rw [e1]; omega

/-- The first activation window's block at point t is row block t of the activations. -/
theorem iblk0_apply (c : Dev nD) (t : Fin cfg0.N) (p : Fin 2048) (i : Fin 512) :
    (iblk m c 0 t : S2048x512.Idx → EReal) (ix2 p i)
      = (V m c main_arg0 : S16384x512.Idx → EReal) (ix2 (⟨2048 * t.val + p.val, by have := t_lt t; omega⟩ : Fin 16384) i) := by
  unfold iblk
  show (V m c main_arg0 : S16384x512.Idx → EReal) (((cfg0.win 0).blk t).view.emb (ix2 p i)) = _
  refine congrArg _ (funext fun a => Fin.ext ?_)
  obtain ⟨-, -, -, -, e0, e1, -⟩ := idx_facts t
  match a with
  | ⟨0, _⟩ => show win0_0.index t (0 : Fin 2) * 2048 + 1 * p.val = 2048 * t.val + p.val; rw [e0]; omega
  | ⟨1, _⟩ => show win0_0.index t (1 : Fin 2) * 512 + 1 * i.val = i.val; rw [e1]; omega

theorem iblk3_eq (c : Dev nD) (t : Fin cfg0.N) :
    (iblk m c 3 t : S1x256.Idx → EReal) = (V m c main_v0 : S1x256.Idx → EReal) := by
  unfold iblk
  funext y
  show (V m c main_v0 : S1x256.Idx → EReal) (((cfg0.win 3).blk t).view.emb y) = (V m c main_v0 : S1x256.Idx → EReal) y
  refine congrArg _ (funext fun a => Fin.ext ?_)
  obtain ⟨-, -, -, -, -, -, -, -, -, -, e0, e1, -⟩ := idx_facts t
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

theorem iblk4_eq (c : Dev nD) (t : Fin cfg0.N) :
    (iblk m c 4 t : S256x128.Idx → EReal) = (V m c main_arg3 : S256x128.Idx → EReal) := by
  unfold iblk
  funext y
  show (V m c main_arg3 : S256x128.Idx → EReal) (((cfg0.win 4).blk t).view.emb y) = (V m c main_arg3 : S256x128.Idx → EReal) y
  refine congrArg _ (funext fun a => Fin.ext ?_)
  obtain ⟨-, -, -, -, -, -, -, -, -, -, -, -, e0, e1, -⟩ := idx_facts t
  match a with
  | ⟨0, _⟩ => show win0_4.index t (0 : Fin 2) * 256 + 1 * (y 0).val = (y 0).val; rw [e0]; omega
  | ⟨1, _⟩ => show win0_4.index t (1 : Fin 2) * 128 + 1 * (y 1).val = (y 1).val; rw [e1]; omega

theorem iblk5_eq (c : Dev nD) (t : Fin cfg0.N) :
    (iblk m c 5 t : S1x128.Idx → EReal) = (V m c main_v1 : S1x128.Idx → EReal) := by
  unfold iblk
  funext y
  show (V m c main_v1 : S1x128.Idx → EReal) (((cfg0.win 5).blk t).view.emb y) = (V m c main_v1 : S1x128.Idx → EReal) y
  refine congrArg _ (funext fun a => Fin.ext ?_)
  obtain ⟨-, -, -, -, -, -, -, -, -, -, -, -, -, -, e0, e1, -⟩ := idx_facts t
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem iblk6_eq (c : Dev nD) (t : Fin cfg0.N) :
    (iblk m c 6 t : S128x128.Idx → EReal) = (V m c main_v2 : S128x128.Idx → EReal) := by
  unfold iblk
  funext y
  show (V m c main_v2 : S128x128.Idx → EReal) (((cfg0.win 6).blk t).view.emb y) = (V m c main_v2 : S128x128.Idx → EReal) y
  refine congrArg _ (funext fun a => Fin.ext ?_)
  obtain ⟨-, -, -, -, -, -, -, -, -, -, -, -, -, -, -, -, e0, e1, -⟩ := idx_facts t
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

theorem iblk7_eq (c : Dev nD) (t : Fin cfg0.N) :
    (iblk m c 7 t : S1x128.Idx → EReal) = (V m c main_v4 : S1x128.Idx → EReal) := by
  unfold iblk
  funext y
  show (V m c main_v4 : S1x128.Idx → EReal) (((cfg0.win 7).blk t).view.emb y) = (V m c main_v4 : S1x128.Idx → EReal) y
  refine congrArg _ (funext fun a => Fin.ext ?_)
  obtain ⟨-, -, -, -, -, -, -, -, -, -, -, -, -, -, -, -, -, -, e0, e1⟩ := idx_facts t
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- The second activation window's block at point t is row block 7 - t = 4 + (3 - t) of the activations. -/
theorem iblk1_apply (c : Dev nD) (t : Fin cfg0.N) (p : Fin 2048) (i : Fin 512) :
    (iblk m c 1 t : S2048x512.Idx → EReal) (ix2 p i)
      = (V m c main_arg0 : S16384x512.Idx → EReal) (ix2 (⟨8192 + (2048 * (3 - t.val) + p.val), by have := t_lt t; omega⟩ : Fin 16384) i) := by
  unfold iblk
  show (V m c main_arg0 : S16384x512.Idx → EReal) (((cfg0.win 1).blk t).view.emb (ix2 p i)) = _
  refine congrArg _ (funext fun a => Fin.ext ?_)
  obtain ⟨-, -, -, -, -, -, e0, e1, -⟩ := idx_facts t
  have h4 := t_lt t
  match a with
  | ⟨0, _⟩ => show win0_1.index t (0 : Fin 2) * 2048 + 1 * p.val = 8192 + (2048 * (3 - t.val) + p.val); rw [e0]; omega
  | ⟨1, _⟩ => show win0_1.index t (1 : Fin 2) * 512 + 1 * i.val = i.val; rw [e1]; omega

/-- The first result as one function of the entry contents: row r is the three-layer function of
    activation row r. -/
def G8 (c : Dev nD) : S8192x128.Idx → EReal := fun i =>
  Cert.Mlp.mlp3 (fun (r : Fin 8192) (i : Fin 512) => (V m c main_arg0 : S16384x512.Idx → EReal) (ix2 (⟨r.val, by omega⟩ : Fin 16384) i))
    (fun (i : Fin 512) (j : Fin 256) => (V m c main_arg1 : S512x256.Idx → EReal) (ix2 i j))
    (fun (j : Fin 256) => (V m c main_v0 : S1x256.Idx → EReal) (ix2 (0 : Fin 1) j))
    (fun (j : Fin 256) (k : Fin 128) => (V m c main_arg3 : S256x128.Idx → EReal) (ix2 j k))
    (fun (k : Fin 128) => (V m c main_v1 : S1x128.Idx → EReal) (ix2 (0 : Fin 1) k))
    (fun (k : Fin 128) (q : Fin 128) => (V m c main_v2 : S128x128.Idx → EReal) (ix2 k q))
    (fun (q : Fin 128) => (V m c main_v4 : S1x128.Idx → EReal) (ix2 (0 : Fin 1) q)) (i 0) (i 1)

/-- The second result: row r is the three-layer function of activation row 8192 + r. -/
def G9 (c : Dev nD) : S8192x128.Idx → EReal := fun i =>
  Cert.Mlp.mlp3 (fun (r : Fin 8192) (i : Fin 512) => (V m c main_arg0 : S16384x512.Idx → EReal) (ix2 (⟨8192 + r.val, by omega⟩ : Fin 16384) i))
    (fun (i : Fin 512) (j : Fin 256) => (V m c main_arg1 : S512x256.Idx → EReal) (ix2 i j))
    (fun (j : Fin 256) => (V m c main_v0 : S1x256.Idx → EReal) (ix2 (0 : Fin 1) j))
    (fun (j : Fin 256) (k : Fin 128) => (V m c main_arg3 : S256x128.Idx → EReal) (ix2 j k))
    (fun (k : Fin 128) => (V m c main_v1 : S1x128.Idx → EReal) (ix2 (0 : Fin 1) k))
    (fun (k : Fin 128) (q : Fin 128) => (V m c main_v2 : S128x128.Idx → EReal) (ix2 k q))
    (fun (q : Fin 128) => (V m c main_v4 : S1x128.Idx → EReal) (ix2 (0 : Fin 1) q)) (i 0) (i 1)

/-- What point t writes back to the first result is block t of G8. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz]
  simp only [View.ld_unit_zero (S := S512x256) hz, View.ld_unit_zero (S := S256x128) hz, View.ld_unit_zero (S := S128x128) hz,
    View.ld_unit_zero (S := S1x256) hz, View.ld_unit_zero (S := S1x128) hz, View.ld_unit_zero (S := S2048x512) hz]
  rw [iblk2_eq, iblk3_eq, iblk4_eq, iblk5_eq, iblk6_eq, iblk7_eq]
  funext y
  obtain ⟨p, q, rfl⟩ : ∃ (p : Fin 2048) (q : Fin 128), y = ix2 p q := ⟨y 0, y 1, eq_ix2 y⟩
  have hemb : (((cfg0.win 8).blk t).view.emb (ix2 p q) : S8192x128.Idx)
      = ix2 (⟨2048 * t.val + p.val, by have := t_lt t; omega⟩ : Fin 8192) q := by
    obtain ⟨e0, e1, -⟩ := idx_facts t
    funext a; apply Fin.ext
    match a with
    | ⟨0, _⟩ => show win0_8.index t (0 : Fin 2) * 2048 + 1 * p.val = 2048 * t.val + p.val; rw [e0]; omega
    | ⟨1, _⟩ => show win0_8.index t (1 : Fin 2) * 128 + 1 * q.val = q.val; rw [e1]; omega
  show k0_pay8 (F := Ideal) _ _ _ _ _ _ _ (ix2 p q) = G8 m c (((cfg0.win 8).blk t).view.emb (ix2 p q))
  refine (Pay.pay8_apply _ _ _ _ _ _ _ p q).trans ?_
  refine Eq.trans ?_ (congrArg (G8 m c) hemb.symm)
  exact Cert.Mlp.mlp3_congr _ _ _ _ (fun i => iblk0_apply m c t p i) (fun k => rfl) rfl

/-- What point t writes back to the second result is block 3 - t of G9. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  simp only [View.ld_unit_zero (S := S512x256) hz, View.ld_unit_zero (S := S256x128) hz, View.ld_unit_zero (S := S128x128) hz,
    View.ld_unit_zero (S := S1x256) hz, View.ld_unit_zero (S := S1x128) hz, View.ld_unit_zero (S := S2048x512) hz]
  rw [iblk2_eq, iblk3_eq, iblk4_eq, iblk5_eq, iblk6_eq, iblk7_eq]
  funext y
  obtain ⟨p, q, rfl⟩ : ∃ (p : Fin 2048) (q : Fin 128), y = ix2 p q := ⟨y 0, y 1, eq_ix2 y⟩
  have hemb : (((cfg0.win 9).blk t).view.emb (ix2 p q) : S8192x128.Idx)
      = ix2 (⟨2048 * (3 - t.val) + p.val, by have := t_lt t; omega⟩ : Fin 8192) q := by
    obtain ⟨-, -, e0, e1, -⟩ := idx_facts t
    funext a; apply Fin.ext
    match a with
    | ⟨0, _⟩ => show win0_9.index t (0 : Fin 2) * 2048 + 1 * p.val = 2048 * (3 - t.val) + p.val; rw [e0]; omega
    | ⟨1, _⟩ => show win0_9.index t (1 : Fin 2) * 128 + 1 * q.val = q.val; rw [e1]; omega
  show k0_pay1 (F := Ideal) _ _ _ _ _ _ (ix2 p q) = G9 m c (((cfg0.win 9).blk t).view.emb (ix2 p q))
  refine (Pay.pay1_apply _ _ _ _ _ _ _ p q).trans ?_
  refine Eq.trans ?_ (congrArg (G9 m c) hemb.symm)
  exact Cert.Mlp.mlp3_congr _ _ _ _ (fun i => iblk1_apply m c t p i) (fun k => rfl) rfl

/-- An index of the first result is in point t's block iff each coordinate is in the block's range. -/
theorem mem_blk8 (t : Fin cfg0.N) (i : S8192x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v5_0).slice (win0_8.rect t)).set ↔ _
  rw [View.set_slice_whole, Rect.mem_set_unit]
  exact Iff.rfl

theorem mem_blk9 (t : Fin cfg0.N) (i : S8192x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v5_1).slice (win0_9.rect t)).set ↔ _
  rw [View.set_slice_whole, Rect.mem_set_unit]
  exact Iff.rfl

/-- Row r of the first result lies in the block of point r / 2048. -/
theorem cover8 (i : S8192x128.Idx) :
    ∃ t : Fin cfg0.N, (cfg0.win 8).flush t = true ∧ i ∈ ((cfg0.win 8).blk t).view.set := by
  have hi0 : (i 0).val < 8192 := (i 0).isLt
  have hi1 : (i 1).val < 128 := (i 1).isLt
  obtain ⟨t, ht⟩ : ∃ t : Fin cfg0.N, t.val = (i 0).val / 2048 :=
    ⟨⟨(i 0).val / 2048, lt_of_lt_of_eq (by omega : (i 0).val / 2048 < 4) Gen.N_0.symm⟩, rfl⟩
  obtain ⟨e0, e1, -⟩ := idx_facts t
  refine ⟨t, flush0_8 t, ?_⟩
  rw [mem_blk8]
  intro a
  match a with
  | ⟨0, _⟩ => show win0_8.index t (0 : Fin 2) * 2048 ≤ (i 0).val ∧ (i 0).val < win0_8.index t (0 : Fin 2) * 2048 + 2048; rw [e0, ht]; omega
  | ⟨1, _⟩ => show win0_8.index t (1 : Fin 2) * 128 ≤ (i 1).val ∧ (i 1).val < win0_8.index t (1 : Fin 2) * 128 + 128; rw [e1]; omega

/-- Row r of the second result lies in the block of point 3 - r / 2048. -/
theorem cover9 (i : S8192x128.Idx) :
    ∃ t : Fin cfg0.N, (cfg0.win 9).flush t = true ∧ i ∈ ((cfg0.win 9).blk t).view.set := by
  have hi0 : (i 0).val < 8192 := (i 0).isLt
  have hi1 : (i 1).val < 128 := (i 1).isLt
  obtain ⟨t, ht⟩ : ∃ t : Fin cfg0.N, t.val = 3 - (i 0).val / 2048 :=
    ⟨⟨3 - (i 0).val / 2048, lt_of_lt_of_eq (by omega : 3 - (i 0).val / 2048 < 4) Gen.N_0.symm⟩, rfl⟩
  obtain ⟨-, -, e0, e1, -⟩ := idx_facts t
  refine ⟨t, flush0_9 t, ?_⟩
  rw [mem_blk9]
  intro a
  match a with
  | ⟨0, _⟩ => show win0_9.index t (0 : Fin 2) * 2048 ≤ (i 0).val ∧ (i 0).val < win0_9.index t (0 : Fin 2) * 2048 + 2048; rw [e0, ht]; omega
  | ⟨1, _⟩ => show win0_9.index t (1 : Fin 2) * 128 ≤ (i 1).val ∧ (i 1).val < win0_9.index t (1 : Fin 2) * 128 + 128; rw [e1]; omega

/-- The first result array after the call, at row r and column q. -/
theorem final8 (c : Dev nD) (r : Fin 8192) (q : Fin 128) :
    ((dats m 0 c).arrAt 8 cfg0.N : S8192x128.Idx → EReal) (ix2 r q)
      = Cert.Mlp.mlp3 (fun (r : Fin 8192) (i : Fin 512) => (V m c main_arg0 : S16384x512.Idx → EReal) (ix2 (⟨r.val, by omega⟩ : Fin 16384) i))
          (fun (i : Fin 512) (j : Fin 256) => (V m c main_arg1 : S512x256.Idx → EReal) (ix2 i j))
          (fun (j : Fin 256) => (V m c main_v0 : S1x256.Idx → EReal) (ix2 (0 : Fin 1) j))
          (fun (j : Fin 256) (k : Fin 128) => (V m c main_arg3 : S256x128.Idx → EReal) (ix2 j k))
          (fun (k : Fin 128) => (V m c main_v1 : S1x128.Idx → EReal) (ix2 (0 : Fin 1) k))
          (fun (k : Fin 128) (q : Fin 128) => (V m c main_v2 : S128x128.Idx → EReal) (ix2 k q))
          (fun (q : Fin 128) => (V m c main_v4 : S1x128.Idx → EReal) (ix2 (0 : Fin 1) q)) r q := by
  exact congrFun ((dats m 0 c).arrAt_eq_of_cover 8 (G8 m c) (fun t _ => flushed8_eq m c t) (cover8)) (ix2 r q)

/-- The second result array after the call, at row r and column q. -/
theorem final9 (c : Dev nD) (r : Fin 8192) (q : Fin 128) :
    ((dats m 0 c).arrAt 9 cfg0.N : S8192x128.Idx → EReal) (ix2 r q)
      = Cert.Mlp.mlp3 (fun (r : Fin 8192) (i : Fin 512) => (V m c main_arg0 : S16384x512.Idx → EReal) (ix2 (⟨8192 + r.val, by omega⟩ : Fin 16384) i))
          (fun (i : Fin 512) (j : Fin 256) => (V m c main_arg1 : S512x256.Idx → EReal) (ix2 i j))
          (fun (j : Fin 256) => (V m c main_v0 : S1x256.Idx → EReal) (ix2 (0 : Fin 1) j))
          (fun (j : Fin 256) (k : Fin 128) => (V m c main_arg3 : S256x128.Idx → EReal) (ix2 j k))
          (fun (k : Fin 128) => (V m c main_v1 : S1x128.Idx → EReal) (ix2 (0 : Fin 1) k))
          (fun (k : Fin 128) (q : Fin 128) => (V m c main_v2 : S128x128.Idx → EReal) (ix2 k q))
          (fun (q : Fin 128) => (V m c main_v4 : S1x128.Idx → EReal) (ix2 (0 : Fin 1) q)) r q := by
  exact congrFun ((dats m 0 c).arrAt_eq_of_cover 9 (G9 m c) (fun t _ => flushed9_eq m c t) (cover9)) (ix2 r q)

end Cert.KernelIdeal.Fin

end
-- ==== Proof.KI.HostValues.lean ====
/-
  What the host lines before the call leave in the arrays the call stages, at the ideal instance:
  the two hidden biases as rows, the last layer's weights with 96 zero columns appended, its bias
  with 96 zeros appended and then as a row.  Only the first 32 columns of the padded pieces are
  read here: those are the original entries.
-/
import proofs.«138592_g19258633355276_cont_8to1_1994_27_alg».proof.Proof.KI.Data
import Idealize.ShloMosaic.Lib.Pipeline.Value
import Idealize.ShloMosaic.Lib.ValueLayout
import Idealize.ShloMosaic.Lib.KernelVsHost

set_option maxRecDepth 16384

noncomputable section

namespace Cert.KernelIdeal.HostVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The first hidden bias as a row. -/
theorem V_main_v0_apply (c : Dev nD) (j : Fin 256) :
    (V m c main_v0 : S1x256.Idx → EReal) (ix2 (0 : Fin 1) j) = (m ((c : Thread nD τ).loc main_arg2) : S256.Idx → EReal) (ix1 j) := by
  -- the array is the reshape of the launched bias vector; no later line writes it
  have e : (V m c main_v0 : S1x256.Idx → EReal)
      = shapeCast S1x256 (m ((c : Thread nD τ).loc main_arg2) : S256.Idx → EReal) shapeCasts_S256_S1x256 := by
    dsimp only [V, V0]
    simp only [hostOps0, hostOps0_1, hostOps0_2, hostOps0_3, hostOps0_4, List.flatten_cons, List.flatten_nil,
        List.append_nil, List.cons_append, List.nil_append]
    after_results
    rfl
  rw [e]
  -- entry (0, j) of the row and entry j of the vector sit at the same row-major position
  refine shapeCast_apply (s := S256) (t := S1x256) _ shapeCasts_S256_S1x256 (ix2 (0 : Fin 1) j) (ix1 j) ?_
  rw [Shape.rowMajor_val_two, Shape.rowMajor_val_one]
  show j.val = 0 * 256 + j.val
  omega

/-- The second hidden bias as a row. -/
theorem V_main_v1_apply (c : Dev nD) (k : Fin 128) :
    (V m c main_v1 : S1x128.Idx → EReal) (ix2 (0 : Fin 1) k) = (m ((c : Thread nD τ).loc main_arg4) : S128.Idx → EReal) (ix1 k) := by
  have e : (V m c main_v1 : S1x128.Idx → EReal)
      = shapeCast S1x128 (m ((c : Thread nD τ).loc main_arg4) : S128.Idx → EReal) shapeCasts_S128_S1x128 := by
    dsimp only [V, V0]
    simp only [hostOps0, hostOps0_1, hostOps0_2, hostOps0_3, hostOps0_4, List.flatten_cons, List.flatten_nil,
        List.append_nil, List.cons_append, List.nil_append]
    after_results
    rfl
  rw [e]
  refine shapeCast_apply (s := S128) (t := S1x128) _ shapeCasts_S128_S1x128 (ix2 (0 : Fin 1) k) (ix1 k) ?_
  rw [Shape.rowMajor_val_two, Shape.rowMajor_val_one]
  show k.val = 0 * 128 + k.val
  omega

/-- The padded last-layer weights, in an original column. -/
theorem V_main_v2_apply (c : Dev nD) (k : Fin 128) (q : Fin 128) (hq : q.val < 32) :
    (V m c main_v2 : S128x128.Idx → EReal) (ix2 k q) = (m ((c : Thread nD τ).loc main_arg5) : S128x32.Idx → EReal) (ix2 k (⟨q.val, hq⟩ : Fin 32)) := by
  -- the array is the launched weights padded on the right with some value v (which one does not
  -- matter below); no later line writes it
  obtain ⟨v, e⟩ : ∃ v : S_.Idx → EReal, (V m c main_v2 : S128x128.Idx → EReal)
      = pad S128x128 ![0, 0] ![0, 96] ![0, 0] (m ((c : Thread nD τ).loc main_arg5) : S128x32.Idx → EReal) v
          pads_S128x32_S128x128_000_0960 h_S_ := by
    refine Exists.intro ?w ?h
    case h =>
      dsimp only [V, V0]
      simp only [hostOps0, hostOps0_1, hostOps0_2, hostOps0_3, hostOps0_4, List.flatten_cons, List.flatten_nil,
        List.append_nil, List.cons_append, List.nil_append]
      after_results
      rfl
  rw [e]
  -- with no low padding and no interior padding, entry (k, q) for q < 32 is inside the operand, at (k, q)
  refine pad_apply_of_inside (s := S128x32) (t := S128x128) _ _ _ _ v pads_S128x32_S128x128_000_0960 h_S_
    (ix2 k q) (ix2 k (⟨q.val, hq⟩ : Fin 32)) ?_
  intro a
  match a with
  | ⟨0, _⟩ => show k.val = 0 + k.val * (0 + 1); omega
  | ⟨1, _⟩ => show q.val = 0 + q.val * (0 + 1); omega

/-- The padded last-layer bias as a row, in an original column. -/
theorem V_main_v4_apply (c : Dev nD) (q : Fin 128) (hq : q.val < 32) :
    (V m c main_v4 : S1x128.Idx → EReal) (ix2 (0 : Fin 1) q) = (m ((c : Thread nD τ).loc main_arg6) : S32.Idx → EReal) (ix1 (⟨q.val, hq⟩ : Fin 32)) := by
  -- the array is the reshape of the launched bias padded on the right with some value v
  obtain ⟨v, e⟩ : ∃ v : S_.Idx → EReal, (V m c main_v4 : S1x128.Idx → EReal)
      = shapeCast S1x128 (pad S128 ![0] ![96] ![0] (m ((c : Thread nD τ).loc main_arg6) : S32.Idx → EReal) v
          pads_S32_S128_0960 h_S_) shapeCasts_S128_S1x128 := by
    refine Exists.intro ?w ?h
    case h =>
      dsimp only [V, V0]
      simp only [hostOps0, hostOps0_1, hostOps0_2, hostOps0_3, hostOps0_4, List.flatten_cons, List.flatten_nil,
        List.append_nil, List.cons_append, List.nil_append]
      after_results
      rfl
  rw [e]
  -- entry (0, q) of the row is entry q of the padded vector,
  refine (shapeCast_apply (s := S128) (t := S1x128) _ shapeCasts_S128_S1x128 (ix2 (0 : Fin 1) q) (ix1 q) ?_).trans ?_
  · rw [Shape.rowMajor_val_two, Shape.rowMajor_val_one]
    show q.val = 0 * 128 + q.val
    omega
  -- which for q < 32 is inside the operand, at q
  · refine pad_apply_of_inside (s := S32) (t := S128) _ _ _ _ v pads_S32_S128_0960 h_S_ (ix1 q) (ix1 (⟨q.val, hq⟩ : Fin 32)) ?_
    intro a
    match a with
    | ⟨0, _⟩ => show q.val = 0 + q.val * (0 + 1); omega

end Cert.KernelIdeal.HostVal

end
-- ==== Proof.KI.Tail.lean ====
/-
  What the host lines after the call leave in the program's result, at the ideal instance: the
  first 32 columns of the first result array on top of the first 32 columns of the second.
-/
import proofs.«138592_g19258633355276_cont_8to1_1994_27_alg».proof.Proof.KI.Data
import Idealize.ShloMosaic.Lib.Pipeline.Value
import Idealize.ShloMosaic.Lib.ValueLayout

set_option maxRecDepth 16384

noncomputable section

namespace Cert.KernelIdeal.TailVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- What the call leaves at a window's array, read back at that window's contents, when no OTHER
    window is on the same array (the array of a window that shares it with none is determined by
    the window, whatever the other windows share among themselves). -/
theorem withArrays_of_unique {gr W : Nat} (win : Fin W → Pipeline.WinSpec sig gr) (c : Dev nD)
    (V : Valuation τ sig (Elt Ideal))
    (A : (w : Fin W) → Buf (Elt Ideal) ((win w).arr.view.loc (c.tc : Thread nD τ))) (w : Fin W)
    (huniq : ∀ w', Pipeline.arrRef win w' = Pipeline.arrRef win w → w' = w) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents (Elt Ideal)) e) (A w') = A w from this _ h.choose_spec
  intro w' e
  obtain rfl : w' = w := huniq w' (Proc.devRef_injective _ e)
  rfl

/-- The program's result at row r, column q: the first result array's entry for r < 8192, the
    second's at row r - 8192 otherwise. -/
theorem tail_main_v8_apply (c : Dev nD) (r : Fin 16384) (q : Fin 32) :
    (Pipeline.afterTail₀ cfgs (dats m) 0 (V0 m) [hostOps1] c main_v8 : S16384x32.Idx → EReal) (ix2 r q)
      = if h : r.val < 8192 then
          ((dats m 0 c).arrAt 8 cfg0.N : S8192x128.Idx → EReal) (ix2 (⟨r.val, h⟩ : Fin 8192) (⟨q.val, by omega⟩ : Fin 128))
        else
          ((dats m 0 c).arrAt 9 cfg0.N : S8192x128.Idx → EReal) (ix2 (⟨r.val - 8192, by omega⟩ : Fin 8192) (⟨q.val, by omega⟩ : Fin 128)) := by
  unfold Pipeline.afterTail₀
  simp only [List.flatten_cons, List.flatten_nil, List.append_nil]
  show StableHlo.after hostOps1 _ (Proc.devRef .tc main_v8) _ = _
  after_results
  have h8 : Pipeline.withArrays (cfgs 0).spec c (V0 m c) (fun w => (dats m 0 c).arrAt w (cfgs 0).N) (Proc.devRef .tc main_v5_0)
      = (dats m 0 c).arrAt 8 cfg0.N :=
    withArrays_of_unique spec0 c (V0 m c) (fun w => (dats m 0 c).arrAt w cfg0.N) 8 (by decide)
  have h9 : Pipeline.withArrays (cfgs 0).spec c (V0 m c) (fun w => (dats m 0 c).arrAt w (cfgs 0).N) (Proc.devRef .tc main_v5_1)
      = (dats m 0 c).arrAt 9 cfg0.N :=
    withArrays_of_unique spec0 c (V0 m c) (fun w => (dats m 0 c).arrAt w cfg0.N) 9 (by decide)
  rw [h8, h9]
  by_cases h : r.val < 8192
  · rw [dif_pos h]
    -- the row falls in the first piece: the first slice at the same row and column
    refine (concatenate_pair_apply_left (t := S16384x32) (s₁ := S8192x32) (s₂ := S8192x32) (0 : Fin 2) _ _ concatenates_S8192x32_S8192x32_S16384x32_d0 (ix2 r q) rfl
      (ix2 (⟨r.val, h⟩ : Fin 8192) q) (fun b => ?_)).trans ?_
    · match b with
      | ⟨0, _⟩ => rfl
      | ⟨1, _⟩ => rfl
    · exact slice2_axis1_apply 0 _ slices_S8192x128_S8192x32_0_0 (⟨r.val, h⟩ : Fin 8192) q (⟨q.val, by omega⟩ : Fin 128)
        (Nat.zero_add _).symm
  · rw [dif_neg h]
    -- the row falls in the second piece, the first piece's 8192 rows less
    refine (concatenate_pair_apply_right (t := S16384x32) (s₁ := S8192x32) (s₂ := S8192x32) (0 : Fin 2) _ _ concatenates_S8192x32_S8192x32_S16384x32_d0 (ix2 r q) rfl rfl
      (ix2 (⟨r.val - 8192, by omega⟩ : Fin 8192) q) (fun b hb => ?_) ?_).trans ?_
    · match b, hb with
      | ⟨0, _⟩, hb => exact absurd rfl hb
      | ⟨1, _⟩, _ => rfl
    · show r.val - 8192 + 8192 = r.val
      omega
    · exact slice2_axis1_apply 0 _ slices_S8192x128_S8192x32_0_0 (⟨r.val - 8192, by omega⟩ : Fin 8192) q (⟨q.val, by omega⟩ : Fin 128)
        (Nat.zero_add _).symm

end Cert.KernelIdeal.TailVal

end
-- ==== Proof.KI.KernelValue.lean ====
/-
  The idealized kernel program's result, at row r and column q, is the three-layer function of
  the launch memory's arguments.  Row r < 8192 lies in the first result array, computed from
  activation row r; row r ≥ 8192 in the second, computed from activation row 8192 + (r - 8192) = r.
  The last layer ran with 96 zero columns appended to its weights and bias; column q < 32 reads
  only the original column q.
-/
import proofs.«138592_g19258633355276_cont_8to1_1994_27_alg».proof.Proof.KI.Final
import proofs.«138592_g19258633355276_cont_8to1_1994_27_alg».proof.Proof.KI.HostValues
import proofs.«138592_g19258633355276_cont_8to1_1994_27_alg».proof.Proof.KI.Tail
import proofs.«138592_g19258633355276_cont_8to1_1994_27_alg».proof.Proof.KI.Kept

set_option maxRecDepth 16384

noncomputable section

namespace Cert.KernelIdeal.KVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

theorem kernel_value (c : Dev nD) (r : Fin 16384) (q : Fin 32) :
    (Pipeline.afterTail₀ cfgs (dats m) 0 (V0 m) [hostOps1] c main_v8 : S16384x32.Idx → EReal) (ix2 r q)
      = Cert.Mlp.mlp3 (fun (r : Fin 16384) (i : Fin 512) => (m ((c : Thread nD τ).loc main_arg0) : S16384x512.Idx → EReal) (ix2 r i))
          (fun (i : Fin 512) (j : Fin 256) => (m ((c : Thread nD τ).loc main_arg1) : S512x256.Idx → EReal) (ix2 i j))
          (fun (j : Fin 256) => (m ((c : Thread nD τ).loc main_arg2) : S256.Idx → EReal) (ix1 j))
          (fun (j : Fin 256) (k : Fin 128) => (m ((c : Thread nD τ).loc main_arg3) : S256x128.Idx → EReal) (ix2 j k))
          (fun (k : Fin 128) => (m ((c : Thread nD τ).loc main_arg4) : S128.Idx → EReal) (ix1 k))
          (fun (k : Fin 128) (q : Fin 32) => (m ((c : Thread nD τ).loc main_arg5) : S128x32.Idx → EReal) (ix2 k q))
          (fun (q : Fin 32) => (m ((c : Thread nD τ).loc main_arg6) : S32.Idx → EReal) (ix1 q)) r q := by
  have hb1 : (fun (j : Fin 256) => (V m c main_v0 : S1x256.Idx → EReal) (ix2 (0 : Fin 1) j))
      = fun (j : Fin 256) => (m ((c : Thread nD τ).loc main_arg2) : S256.Idx → EReal) (ix1 j) :=
    funext fun j => HostVal.V_main_v0_apply m c j
  have hb2 : (fun (k : Fin 128) => (V m c main_v1 : S1x128.Idx → EReal) (ix2 (0 : Fin 1) k))
      = fun (k : Fin 128) => (m ((c : Thread nD τ).loc main_arg4) : S128.Idx → EReal) (ix1 k) :=
    funext fun k => HostVal.V_main_v1_apply m c k
  rw [TailVal.tail_main_v8_apply]
  split
  · rename_i h
    rw [Fin.final8, hb1, hb2, V_main_arg1, V_main_arg3]
    exact Cert.Mlp.mlp3_congr _ _ _ _ (fun i => by rw [V_main_arg0]) (fun k => HostVal.V_main_v2_apply m c k _ (by simp))
      (HostVal.V_main_v4_apply m c _ (by simp))
  · rename_i h
    rw [Fin.final9, hb1, hb2, V_main_arg1, V_main_arg3]
    have hr : (⟨8192 + (r.val - 8192), by omega⟩ : Fin 16384) = r := Fin.ext (by simp only; omega)
    exact Cert.Mlp.mlp3_congr _ _ _ _ (fun i => by rw [V_main_arg0]; exact congrArg (fun r' => (m ((c : Thread nD τ).loc main_arg0) : S16384x512.Idx → EReal) (ix2 r' i)) hr)
      (fun k => HostVal.V_main_v2_apply m c k _ (by simp)) (HostVal.V_main_v4_apply m c _ (by simp))

end Cert.KernelIdeal.KVal

end
-- ==== Proof.RefSide.lean ====
/-
  The reference's result, read at row r and column q, is the three-layer function of the
  argument arrays: three host matrix products as sums over the contracted axis, each bias
  broadcast along the rows, max with the zero constant after the first two.
-/
import proofs.«138592_g19258633355276_cont_8to1_1994_27_alg».proof.Proof.Gen.ReferenceIdeal.Read
import proofs.«138592_g19258633355276_cont_8to1_1994_27_alg».proof.Proof.Spec

noncomputable section

namespace Cert.RefSide

open Idealize.ShloMosaic Idealize.ShloMosaic.TcCoe Idealize.ShloMosaic.ValueIdx
open Idealize.SL.Sem
open Cert.ReferenceIdeal Cert.ReferenceIdeal.Gen Cert.ReferenceIdeal.Read

/-! Index equations: the composed index functions of the generated reads, at an index given by
    its coordinates, are again indices given by coordinates. -/

private theorem lidx0 (r : Fin 16384) (j : Fin 256) (k : Fin 512) :
    lidx_main_v0 (ix2 r j) k = ix2 r k :=
  funext fun a => Fin.ext (by match a with | ⟨0, _⟩ => rfl | ⟨1, _⟩ => rfl)
private theorem ridx0 (r : Fin 16384) (j : Fin 256) (k : Fin 512) :
    ridx_main_v0 (ix2 r j) k = ix2 k j :=
  funext fun a => Fin.ext (by match a with | ⟨0, _⟩ => rfl | ⟨1, _⟩ => rfl)
private theorem bidx0 (r : Fin 16384) (j : Fin 256) :
    idx_main_v1 (idx_main_v2 (ix2 r j)) = ix1 j :=
  funext fun a => Fin.ext (by match a with | ⟨0, _⟩ => rfl)

private theorem lidx6 (r : Fin 16384) (j : Fin 128) (k : Fin 256) :
    lidx_main_v6 (ix2 r j) k = ix2 r k :=
  funext fun a => Fin.ext (by match a with | ⟨0, _⟩ => rfl | ⟨1, _⟩ => rfl)
private theorem ridx6 (r : Fin 16384) (j : Fin 128) (k : Fin 256) :
    ridx_main_v6 (ix2 r j) k = ix2 k j :=
  funext fun a => Fin.ext (by match a with | ⟨0, _⟩ => rfl | ⟨1, _⟩ => rfl)
private theorem bidx6 (r : Fin 16384) (j : Fin 128) :
    idx_main_v7 (idx_main_v8 (ix2 r j)) = ix1 j :=
  funext fun a => Fin.ext (by match a with | ⟨0, _⟩ => rfl)

private theorem lidx12 (r : Fin 16384) (j : Fin 32) (k : Fin 128) :
    lidx_main_v12 (ix2 r j) k = ix2 r k :=
  funext fun a => Fin.ext (by match a with | ⟨0, _⟩ => rfl | ⟨1, _⟩ => rfl)
private theorem ridx12 (r : Fin 16384) (j : Fin 32) (k : Fin 128) :
    ridx_main_v12 (ix2 r j) k = ix2 k j :=
  funext fun a => Fin.ext (by match a with | ⟨0, _⟩ => rfl | ⟨1, _⟩ => rfl)
private theorem bidx12 (r : Fin 16384) (j : Fin 32) :
    idx_main_v13 (idx_main_v14 (ix2 r j)) = ix1 j :=
  funext fun a => Fin.ext (by match a with | ⟨0, _⟩ => rfl)

/-- First layer: the stage after the first max, at row r and column j. -/
private theorem layer1 (x0 : (⟨S16384x512, .f32⟩ : BufTy).Contents (Elt Ideal)) (x1 : (⟨S512x256, .f32⟩ : BufTy).Contents (Elt Ideal))
    (x2 : (⟨S256, .f32⟩ : BufTy).Contents (Elt Ideal)) (r : Fin 16384) (j : Fin 256) :
    (val_main_v5 (F := Ideal) x0 x1 x2 : S16384x256.Idx → EReal) (ix2 r j)
      = Cert.Mlp.relu (Cert.Mlp.layer (fun (r : Fin 16384) (i : Fin 512) => (x0 : S16384x512.Idx → EReal) (ix2 r i))
          (fun (i : Fin 512) (j : Fin 256) => (x1 : S512x256.Idx → EReal) (ix2 i j))
          (fun (j : Fin 256) => (x2 : S256.Idx → EReal) (ix1 j)) r j) := by
  rw [val_main_v5_apply, val_main_v3_apply, val_main_v0_apply, val_main_v2_apply, val_main_v1_apply,
    val_main_v4_apply, val_main_cst_apply, bidx0]
  simp only [lidx0, ridx0, Ideal.addf_def, Ideal.maximumf_def, Ideal.ofBits_def, Ideal.ofBits_zero_f32]
  rfl

/-- Second layer: the stage after the second max, at row r and column j. -/
private theorem layer2 (x0 : (⟨S16384x512, .f32⟩ : BufTy).Contents (Elt Ideal)) (x1 : (⟨S512x256, .f32⟩ : BufTy).Contents (Elt Ideal))
    (x2 : (⟨S256, .f32⟩ : BufTy).Contents (Elt Ideal)) (x3 : (⟨S256x128, .f32⟩ : BufTy).Contents (Elt Ideal))
    (x4 : (⟨S128, .f32⟩ : BufTy).Contents (Elt Ideal)) (r : Fin 16384) (j : Fin 128) :
    (val_main_v11 (F := Ideal) x0 x1 x2 x3 x4 : S16384x128.Idx → EReal) (ix2 r j)
      = Cert.Mlp.relu (Cert.Mlp.layer (fun (r : Fin 16384) (k : Fin 256) =>
            (val_main_v5 (F := Ideal) x0 x1 x2 : S16384x256.Idx → EReal) (ix2 r k))
          (fun (i : Fin 256) (j : Fin 128) => (x3 : S256x128.Idx → EReal) (ix2 i j))
          (fun (j : Fin 128) => (x4 : S128.Idx → EReal) (ix1 j)) r j) := by
  rw [val_main_v11_apply, val_main_v9_apply, val_main_v6_apply, val_main_v8_apply, val_main_v7_apply,
    val_main_v10_apply, val_main_cst_0_apply, bidx6]
  simp only [lidx6, ridx6, Ideal.addf_def, Ideal.maximumf_def, Ideal.ofBits_def, Ideal.ofBits_zero_f32]
  rfl

/-- Third layer: the last stage at row r and column j. -/
private theorem layer3 (x0 : (⟨S16384x512, .f32⟩ : BufTy).Contents (Elt Ideal)) (x1 : (⟨S512x256, .f32⟩ : BufTy).Contents (Elt Ideal))
    (x2 : (⟨S256, .f32⟩ : BufTy).Contents (Elt Ideal)) (x3 : (⟨S256x128, .f32⟩ : BufTy).Contents (Elt Ideal))
    (x4 : (⟨S128, .f32⟩ : BufTy).Contents (Elt Ideal)) (x5 : (⟨S128x32, .f32⟩ : BufTy).Contents (Elt Ideal))
    (x6 : (⟨S32, .f32⟩ : BufTy).Contents (Elt Ideal)) (r : Fin 16384) (j : Fin 32) :
    (val_main_v15 (F := Ideal) x0 x1 x2 x3 x4 x5 x6 : S16384x32.Idx → EReal) (ix2 r j)
      = Cert.Mlp.layer (fun (r : Fin 16384) (k : Fin 128) =>
            (val_main_v11 (F := Ideal) x0 x1 x2 x3 x4 : S16384x128.Idx → EReal) (ix2 r k))
          (fun (i : Fin 128) (j : Fin 32) => (x5 : S128x32.Idx → EReal) (ix2 i j))
          (fun (j : Fin 32) => (x6 : S32.Idx → EReal) (ix1 j)) r j := by
  rw [val_main_v15_apply, val_main_v12_apply, val_main_v14_apply, val_main_v13_apply, bidx12]
  simp only [lidx12, ridx12, Ideal.addf_def]
  rfl

/-- The reference's last stage at row r, column q. -/
theorem ref_apply (x0 : (⟨S16384x512, .f32⟩ : BufTy).Contents (Elt Ideal)) (x1 : (⟨S512x256, .f32⟩ : BufTy).Contents (Elt Ideal))
    (x2 : (⟨S256, .f32⟩ : BufTy).Contents (Elt Ideal)) (x3 : (⟨S256x128, .f32⟩ : BufTy).Contents (Elt Ideal))
    (x4 : (⟨S128, .f32⟩ : BufTy).Contents (Elt Ideal)) (x5 : (⟨S128x32, .f32⟩ : BufTy).Contents (Elt Ideal))
    (x6 : (⟨S32, .f32⟩ : BufTy).Contents (Elt Ideal)) (r : Fin 16384) (q : Fin 32) :
    (val_main_v15 (F := Ideal) x0 x1 x2 x3 x4 x5 x6 : S16384x32.Idx → EReal) (ix2 r q)
      = Cert.Mlp.mlp3 (fun (r : Fin 16384) (i : Fin 512) => (x0 : S16384x512.Idx → EReal) (ix2 r i))
          (fun (i : Fin 512) (j : Fin 256) => (x1 : S512x256.Idx → EReal) (ix2 i j))
          (fun (j : Fin 256) => (x2 : S256.Idx → EReal) (ix1 j))
          (fun (j : Fin 256) (k : Fin 128) => (x3 : S256x128.Idx → EReal) (ix2 j k))
          (fun (k : Fin 128) => (x4 : S128.Idx → EReal) (ix1 k))
          (fun (k : Fin 128) (q : Fin 32) => (x5 : S128x32.Idx → EReal) (ix2 k q))
          (fun (q : Fin 32) => (x6 : S32.Idx → EReal) (ix1 q)) r q := by
  rw [layer3]
  unfold Cert.Mlp.mlp3
  simp only [layer2, layer1]

end Cert.RefSide

end
-- ==== Proof.lean ====
/-
  The certificate of a fused three-layer encoder against its plain reference.

  The kernel computes relu(relu(x·W1 + b1)·W2 + b2)·W3 + b3 for 16384 rows of 512 features, down to
  32 outputs, in one pipelined call over four grid points: at each point one block of 2048 rows
  from the upper half of x and one from the lower half, read through two windows on the one array
  x; the last layer's weights and bias are padded with zero columns to width 128 and the first 32
  columns of the two result arrays are stacked afterwards.  The reference is the same three layers
  on the whole of x.

  At the ideal instance both results are, entry by entry, the one function Cert.Mlp.mlp3 of the
  arguments: a rounding to a shorter float format is the identity there, a matrix product into a
  zero accumulator is the plain sum over the contracted axis, and entry (r, q) reads x only in row
  r and the last layer only in column q, so neither the blocking of the rows nor the padding of
  the columns changes it.  No law that needs finiteness is used: the precondition is never opened.

  The frames (each program runs to the end, faults nowhere, leaves its arguments unchanged): for
  the two kernel programs, from the pipelined call's run with the array x dealt half and half to
  its two windows; for the reference, its run with the result dropped.  The idealization rewrote
  nothing, so the preservation claim is trivial.
-/
import proofs.«138592_g19258633355276_cont_8to1_1994_27_alg».proof.Defs
import proofs.«138592_g19258633355276_cont_8to1_1994_27_alg».proof.Proof.Gen.Kernel
import proofs.«138592_g19258633355276_cont_8to1_1994_27_alg».proof.Proof.Gen.Kernel.Skeleton
import proofs.«138592_g19258633355276_cont_8to1_1994_27_alg».proof.Proof.Gen.Kernel.Launch
import proofs.«138592_g19258633355276_cont_8to1_1994_27_alg».proof.Proof.Gen.Kernel.Points
import proofs.«138592_g19258633355276_cont_8to1_1994_27_alg».proof.Proof.Gen.KernelIdeal
import proofs.«138592_g19258633355276_cont_8to1_1994_27_alg».proof.Proof.Gen.KernelIdeal.Skeleton
import proofs.«138592_g19258633355276_cont_8to1_1994_27_alg».proof.Proof.Gen.KernelIdeal.Launch
import proofs.«138592_g19258633355276_cont_8to1_1994_27_alg».proof.Proof.Gen.KernelIdeal.Points
import proofs.«138592_g19258633355276_cont_8to1_1994_27_alg».proof.Proof.Gen.ReferenceIdeal
import proofs.«138592_g19258633355276_cont_8to1_1994_27_alg».proof.Proof.Gen.Pre_finite_inputs
import proofs.«138592_g19258633355276_cont_8to1_1994_27_alg».proof.Proof.Gen.ReferenceIdeal.Run
import proofs.«138592_g19258633355276_cont_8to1_1994_27_alg».proof.Proof.Gen.ReferenceIdeal.Read
import proofs.«138592_g19258633355276_cont_8to1_1994_27_alg».proof.Proof.K.Run
import proofs.«138592_g19258633355276_cont_8to1_1994_27_alg».proof.Proof.KI.Run
import proofs.«138592_g19258633355276_cont_8to1_1994_27_alg».proof.Proof.KI.KernelValue
import proofs.«138592_g19258633355276_cont_8to1_1994_27_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments the two idealized programs end with the same result:
    both are the three-layer function of the arguments, entry by entry. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m)
      [Cert.KernelIdeal.Gen.hostOps1] c Cert.KernelIdeal.main_v8, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  funext i
  obtain ⟨r, q, rfl⟩ : ∃ (r : Fin 16384) (q : Fin 32), i = ValueIdx.ix2 r q := ⟨i 0, i 1, ValueIdx.eq_ix2 i⟩
  rw [Cert.ReferenceIdeal.Read.val_main_v15_eq, Cert.RefSide.ref_apply,
    (hagree c).1, (hagree c).2.1, (hagree c).2.2.1, (hagree c).2.2.2.1, (hagree c).2.2.2.2.1, (hagree c).2.2.2.2.2.1, (hagree c).2.2.2.2.2.2]
  exact (Cert.KernelIdeal.KVal.kernel_value m c r q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
